-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S16x1024x1024 : Shape := ⟨3, ![16, 1024, 1024]⟩
abbrev S16x1024 : Shape := ⟨2, ![16, 1024]⟩
abbrev S1024x1024 : Shape := ⟨2, ![1024, 1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16x512x1024 .f32) (main_arg1 : FVec F S16x1024x1024 .f32) (main_arg2 : FVec F S16x1024x1024 .f32) (main_arg3 : FVec F S16x1024 .f32) (main_arg4 : FVec F S1024x1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S16x512x1024 : Shape := ⟨3, ![16, 512, 1024]⟩
abbrev S16x1024x1024 : Shape := ⟨3, ![16, 1024, 1024]⟩
abbrev S16x1024 : Shape := ⟨2, ![16, 1024]⟩
abbrev S1024x1024 : Shape := ⟨2, ![1024, 1024]⟩
abbrev S16x1024x1 : Shape := ⟨3, ![16, 1024, 1]⟩
abbrev S16x1x1024 : Shape := ⟨3, ![16, 1, 1024]⟩
abbrev S1x1024x1024 : Shape := ⟨3, ![1, 1024, 1024]⟩
abbrev S1x1024x1 : Shape := ⟨3, ![1, 1024, 1]⟩
abbrev S1024x1 : Shape := ⟨2, ![1024, 1]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 11
  | .vmem => 21
  | .smem => 0
  | _ => 0

abbrev bufTy : (tb : Table) → Fin (tcTables nBuf tb) → BufTy
  | .hbm, ⟨0, _⟩ => ⟨S16x512x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S16x1024x1, .f32⟩
  | .hbm, ⟨6, _⟩ => ⟨S16x1x1024, .f32⟩
  | .hbm, ⟨7, _⟩ => ⟨S16x1024x1024, .bf16⟩
  | .hbm, ⟨8, _⟩ => ⟨S16x512x1024, .f32⟩
  | .hbm, ⟨9, _⟩ => ⟨S16x512x1024, .f32⟩
  | .hbm, ⟨10, _⟩ => ⟨S16x512x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x1024x1.size a
  hwx0_2 : ∀ i : grid0.Coords, EltTy.bits .f32 = 32 ∨ (Rect.block (s := S16x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .bf16 = 32 ∨ (Rect.block (s := S16x1024x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x512x1024.size a
  hwx1_0 : ∀ i : grid1.Coords, EltTy.bits .f32 = 32 ∨ (Rect.block (s := S16x512x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S16x1024x1024.size a
  hwx1_1 : ∀ i : grid1.Coords, EltTy.bits .bf16 = 32 ∨ (Rect.block (s := S16x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S16x1024x1024.size a
  hwx1_2 : ∀ i : grid1.Coords, EltTy.bits .f32 = 32 ∨ (Rect.block (s := S16x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S16x1x1024.size a
  hwx1_3 : ∀ i : grid1.Coords, EltTy.bits .f32 = 32 ∨ (Rect.block (s := S16x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S16x512x1024.size a
  hwx1_4 : ∀ i : grid1.Coords, EltTy.bits .f32 = 32 ∨ (Rect.block (s := S16x512x1024) S1x512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S16x512x1024.size a
  hwx1_5 : ∀ i : grid1.Coords, EltTy.bits .f32 = 32 ∨ (Rect.block (s := S16x512x1024) S1x512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S16x512x1024.size a
  hwx1_6 : ∀ i : grid1.Coords, EltTy.bits .f32 = 32 ∨ (Rect.block (s := S16x512x1024) S1x512x1024.size (cc1_transform_6 i) (hinb1_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1x512x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1x512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x512x1024 : Shape := ⟨3, ![16, 512, 1024]⟩
abbrev S16x1024x1024 : Shape := ⟨3, ![16, 1024, 1024]⟩
abbrev S16x1024 : Shape := ⟨2, ![16, 1024]⟩
abbrev S1024x1024 : Shape := ⟨2, ![1024, 1024]⟩
abbrev S16x1024x1 : Shape := ⟨3, ![16, 1024, 1]⟩
abbrev S16x1x1024 : Shape := ⟨3, ![16, 1, 1024]⟩
abbrev S_ : Shape := ⟨0, ![]⟩
abbrev S16x512 : Shape := ⟨2, ![16, 512]⟩
abbrev S16x512x1 : Shape := ⟨3, ![16, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S16x1024x1024, .f32⟩
  | .hbm, ⟨6, _⟩ => ⟨S16x1024x1, .f32⟩
  | .hbm, ⟨7, _⟩ => ⟨S16x1024x1024, .f32⟩
  | .hbm, ⟨8, _⟩ => ⟨S16x1024x1024, .f32⟩
  | .hbm, ⟨9, _⟩ => ⟨S16x512x1024, .f32⟩
  | .hbm, ⟨10, _⟩ => ⟨S16x1x1024, .f32⟩
  | .hbm, ⟨11, _⟩ => ⟨S16x512x1024, .f32⟩
  | .hbm, ⟨12, _⟩ => ⟨S16x512x1024, .f32⟩
  | .hbm, ⟨13, _⟩ => ⟨S16x1x1024, .f32⟩
  | .hbm, ⟨14, _⟩ => ⟨S16x512x1024, .f32⟩
  | .hbm, ⟨15, _⟩ => ⟨S16x512x1024, .f32⟩
  | .hbm, ⟨16, _⟩ => ⟨S_, .f32⟩
  | .hbm, ⟨17, _⟩ => ⟨S16x512, .f32⟩
  | .hbm, ⟨18, _⟩ => ⟨S16x512x1, .f32⟩
  | .hbm, ⟨19, _⟩ => ⟨S16x512x1024, .f32⟩
  | .hbm, ⟨20, _⟩ => ⟨S16x512x1024, .f32⟩
  | .hbm, ⟨21, _⟩ => ⟨S16x512x1024, .f32⟩
  | .hbm, ⟨22, _⟩ => ⟨S16x1x1024, .f32⟩
  | .hbm, ⟨23, _⟩ => ⟨S16x512x1024, .f32⟩
  | .hbm, ⟨24, _⟩ => ⟨S16x512x1024, .f32⟩
  | .hbm, ⟨25, _⟩ => ⟨S_, .f32⟩
  | .hbm, ⟨26, _⟩ => ⟨S16x512, .f32⟩
  | .hbm, ⟨27, _⟩ => ⟨S16x512x1, .f32⟩
  | .hbm, ⟨28, _⟩ => ⟨S_, .f32⟩
  | .hbm, ⟨29, _⟩ => ⟨S16x512x1, .f32⟩
  | .hbm, ⟨30, _⟩ => ⟨S16x512x1, .f32⟩
  | .hbm, ⟨31, _⟩ => ⟨S16x512x1024, .f32⟩
  | .hbm, ⟨32, _⟩ => ⟨S16x512x1024, .f32⟩
  | .hbm, ⟨33, _⟩ => ⟨S16x512x1024, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x512x1024_0_1_2 : S16x1x1024.BroadcastsInDim S16x512x1024 (![0, 1, 2] : Fin 3 → Fin S16x512x1024.rank)
  reducesTo_S16x512x1024_S16x512_d2 : S16x512x1024.ReducesTo [2] S16x512
  h_S_ : 0 < S_.numel
  bcast_S16x512_S16x512x1_0_1 : S16x512.BroadcastsInDim S16x512x1 (![0, 1] : Fin 2 → Fin S16x512x1.rank)
  bcast_S16x512x1_S16x512x1024_0_1_2 : S16x512x1.BroadcastsInDim S16x512x1024 (![0, 1, 2] : Fin 3 → Fin S16x512x1024.rank)
  bcast_S_S16x512x1 : S_.BroadcastsInDim S16x512x1 (![] : Fin 0 → Fin S16x512x1.rank)
  dot_S16x1024x1024_S1024x1024_S16x1024x1024_2_1_01_0_n_n_wf : DotDims.WF S16x1024x1024 S1024x1024 S16x1024x1024 [2] [1] [0, 1] [0] [] []
  dot_S16x512x1024_S16x1024x1024_S16x512x1024_2_2_1_1_0_0_wf : DotDims.WF S16x512x1024 S16x1024x1024 S16x512x1024 [2] [2] [1] [1] [0] [0]
  dot_S16x512x1024_S16x1024x1024_S16x512x1024_2_1_1_2_0_0_wf : DotDims.WF S16x512x1024 S16x1024x1024 S16x512x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x512x1024_S16x1024x1024_S16x512x1024_2_2_1_1_0_0 : DotDims S16x512x1024 S16x1024x1024 S16x512x1024 where
  lhsContracting := [2]
  rhsContracting := [2]
  lhsNonContracting := [1]
  rhsNonContracting := [1]
  lhsBatch := [0]
  rhsBatch := [0]
  wf := dot_S16x512x1024_S16x1024x1024_S16x512x1024_2_2_1_1_0_0_wf
def dot_S16x512x1024_S16x1024x1024_S16x512x1024_2_1_1_2_0_0 : DotDims S16x512x1024 S16x1024x1024 S16x512x1024 where
  lhsContracting := [2]
  rhsContracting := [1]
  lhsNonContracting := [1]
  rhsNonContracting := [2]
  lhsBatch := [0]
  rhsBatch := [0]
  wf := dot_S16x512x1024_S16x1024x1024_S16x512x1024_2_1_1_2_0_0_wf

class Facts : Prop extends Facts₀ where

variable [Facts]
-- ==== Proof.Run.lean ====
/-
  The idealized kernel program's run with its results named. The program is two host broadcasts of the mask (to a
  column `[16, 1024, 1]` and to a row `[16, 1, 1024]`) followed by two pipelined kernels: the first writes the masked
  projected keys, the second reads them and writes the contexts, the attention weights and the masked energies. Every
  weakly fair execution terminates; each result array ends at what the second kernel's write-backs leave in it, the
  buffer contents being followed segment by segment from the launch memory, and the five arguments end as launched.

  Also here: what each kernel finds in its operand arrays when it is entered — the arguments as launched, the two
  broadcasts of the mask, and, for the second kernel, the first kernel's result.
-/
import proofs.«158329_j59450937311976_2_alg».proof.Proof.Gen.KernelIdeal.Frame
import Idealize.ShloMosaic.Lib.StableHlo.Run

set_option maxRecDepth 16384

noncomputable section

namespace Cert.Attn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result array ends at the contents the last segment boundary gives it, the arguments as launched. -/
theorem run : θ_run defs (onTc (τ := τ) (main (F := F))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_v3_2) = W3 m ρ c (Proc.devRef .tc main_v3_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3_0 (by decide)),
       h c _ (mem_uc main_v3_1 (by decide)),
       h c _ (mem_uc main_v3_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Attn.KernelRun

end
-- ==== Proof.Spec.lean ====
/-
  Masked dot-product attention with a projected key, on the extended reals.

  For one batch entry: the keys are the encoder outputs projected by the weight matrix and multiplied by the
  source mask; the energy of a query against a key is their inner product, multiplied by the mask again;
  the logit is the energy multiplied by the mask a third time; the weights are the masked softmax of the
  logits along the source axis (subtract the row's maximum, exponentiate, multiply by the mask, divide by
  the row's sum plus a small constant); the context is the weights applied to the encoder values.

  Every function here is written index by index over finite index types; sums and maxima have no order.
  The small constant and the starting value of the maximum are kept as the float words that denote them.
-/
import Idealize.ShloMosaic.PureOps.Ideal
import Idealize.ShloMosaic.Lib.ValueIdx

noncomputable section

open scoped BigOperators
open Idealize.ShloMosaic Idealize.ShloMosaic.ValueIdx

namespace Cert.Attn

/-! ## One batch entry -/

/-- The masked projected key: entry `(s, d)` is `(∑ e, eo (s, e) · w (d, e)) · mk s`. -/
def key (eo w : Fin 1024 → Fin 1024 → EReal) (mk : Fin 1024 → EReal) (s d : Fin 1024) : EReal :=
  (∑ e : Fin 1024, eo s e * w d e) * mk s

/-- The masked energy: entry `(t, s)` is `(∑ d, h (t, d) · ky (s, d)) · mk s`. -/
def energy (h : Fin 512 → Fin 1024 → EReal) (ky : Fin 1024 → Fin 1024 → EReal) (mk : Fin 1024 → EReal)
    (t : Fin 512) (s : Fin 1024) : EReal :=
  (∑ d : Fin 1024, h t d * ky s d) * mk s

/-- The logit: the energy multiplied by the mask once more. -/
def logit (en : Fin 512 → Fin 1024 → EReal) (mk : Fin 1024 → EReal) (t : Fin 512) (s : Fin 1024) : EReal :=
  en t s * mk s

/-- The greatest logit of row `t`, the maximum started from the value of the word of negative infinity. -/
def top (en : Fin 512 → Fin 1024 → EReal) (mk : Fin 1024 → EReal) (t : Fin 512) : EReal :=
  (Finset.univ : Finset (Fin 1024)).fold max (Ideal.ofBits .f32 0xFF800000#32) (fun s => logit en mk t s)

/-- The unnormalized weight: `exp (logit − top) · mk s`. -/
def mass (en : Fin 512 → Fin 1024 → EReal) (mk : Fin 1024 → EReal) (t : Fin 512) (s : Fin 1024) : EReal :=
  Ideal.exp (logit en mk t s - top en mk t) * mk s

/-- The normalizer of row `t`: the sum of the row's unnormalized weights plus the small constant. -/
def total (en : Fin 512 → Fin 1024 → EReal) (mk : Fin 1024 → EReal) (t : Fin 512) : EReal :=
  (∑ s : Fin 1024, mass en mk t s) + Ideal.ofBits .f32 0x358637BD#32

/-- The attention weight: the unnormalized weight divided by its row's normalizer. -/
def weight (en : Fin 512 → Fin 1024 → EReal) (mk : Fin 1024 → EReal) (t : Fin 512) (s : Fin 1024) : EReal :=
  Ideal.div (mass en mk t s) (total en mk t)

/-- The context: entry `(t, d)` is `∑ s, wt (t, s) · ev (s, d)`. -/
def context (wt : Fin 512 → Fin 1024 → EReal) (ev : Fin 1024 → Fin 1024 → EReal) (t : Fin 512) (d : Fin 1024) : EReal :=
  ∑ s : Fin 1024, wt t s * ev s d

/-! ## Slices of the argument arrays -/

/-- Batch entry `b` of a three-axis array, as a function of the two remaining coordinates. -/
def slab {a p q : ℕ} (x : (⟨3, ![a, p, q]⟩ : Shape).Idx → EReal) (b : Fin a) : Fin p → Fin q → EReal :=
  fun i j => x (ix3 b i j)

/-- Row `b` of a two-axis array. -/
def row {a p : ℕ} (x : (⟨2, ![a, p]⟩ : Shape).Idx → EReal) (b : Fin a) : Fin p → EReal :=
  fun i => x (ix2 b i)

/-- A two-axis array as a function of its two coordinates. -/
def grid {p q : ℕ} (x : (⟨2, ![p, q]⟩ : Shape).Idx → EReal) : Fin p → Fin q → EReal :=
  fun i j => x (ix2 i j)

/-! ## The three results as whole arrays of the five arguments -/

/-- The keys of every batch entry: `[16, 1024, 1024]`. -/
def keys (x1 : (⟨3, ![16, 1024, 1024]⟩ : Shape).Idx → EReal) (x3 : (⟨2, ![16, 1024]⟩ : Shape).Idx → EReal)
    (x4 : (⟨2, ![1024, 1024]⟩ : Shape).Idx → EReal) : (⟨3, ![16, 1024, 1024]⟩ : Shape).Idx → EReal :=
  fun i => key (slab x1 (i 0)) (grid x4) (row x3 (i 0)) (i 1) (i 2)

/-- The masked energies: `[16, 512, 1024]`. -/
def energies (x0 : (⟨3, ![16, 512, 1024]⟩ : Shape).Idx → EReal) (x1 : (⟨3, ![16, 1024, 1024]⟩ : Shape).Idx → EReal)
    (x3 : (⟨2, ![16, 1024]⟩ : Shape).Idx → EReal) (x4 : (⟨2, ![1024, 1024]⟩ : Shape).Idx → EReal) :
    (⟨3, ![16, 512, 1024]⟩ : Shape).Idx → EReal :=
  fun i => energy (slab x0 (i 0)) (slab (keys x1 x3 x4) (i 0)) (row x3 (i 0)) (i 1) (i 2)

/-- The attention weights: `[16, 512, 1024]`. -/
def weights (x0 : (⟨3, ![16, 512, 1024]⟩ : Shape).Idx → EReal) (x1 : (⟨3, ![16, 1024, 1024]⟩ : Shape).Idx → EReal)
    (x3 : (⟨2, ![16, 1024]⟩ : Shape).Idx → EReal) (x4 : (⟨2, ![1024, 1024]⟩ : Shape).Idx → EReal) :
    (⟨3, ![16, 512, 1024]⟩ : Shape).Idx → EReal :=
  fun i => weight (slab (energies x0 x1 x3 x4) (i 0)) (row x3 (i 0)) (i 1) (i 2)

/-- The contexts: `[16, 512, 1024]`. -/
def contexts (x0 : (⟨3, ![16, 512, 1024]⟩ : Shape).Idx → EReal) (x1 x2 : (⟨3, ![16, 1024, 1024]⟩ : Shape).Idx → EReal)
    (x3 : (⟨2, ![16, 1024]⟩ : Shape).Idx → EReal) (x4 : (⟨2, ![1024, 1024]⟩ : Shape).Idx → EReal) :
    (⟨3, ![16, 512, 1024]⟩ : Shape).Idx → EReal :=
  fun i => context (slab (weights x0 x1 x3 x4) (i 0)) (slab x2 (i 0)) (i 1) (i 2)

end Cert.Attn

end
-- ==== Proof.LibMatmulRows.lean ====
/-
  A matrix product with the right operand given by rows, read at an entry. For dimension numbers that contract the
  left operand's axis 1 with the right operand's axis 1 and have no batch axis, the product of an [A, K] and a [B, K]
  array accumulated into the zero splat has, at `(p, q)`, the value `∑ k, lhs (p, k) * rhs (q, k)` on the extended
  reals; for any sizes A, K, B and any two float formats of the operands (a change of format is the identity on the
  extended reals).
-/
import Idealize.ShloMosaic.PureOps.Ideal.Laws
import Idealize.ShloMosaic.Lib.ValueIdx

noncomputable section

open scoped BigOperators
open Idealize.ShloMosaic Idealize.ShloMosaic.ValueIdx

namespace MatmulRows

/-- The matrix product `lhs · rhsᵀ` into a zero accumulator at entry `(p, q)`. -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have r1 : (D.rhsIdx (ix2 p q) ((contrEquiv1 D K rfl rfl).symm k) (1 : Fin 2)).val = k.val :=
    (D.rhsIdx_val_of_single rfl (ix2 p q) _).trans hk
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulRows

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Body0.lean ====
/-
  The first kernel's block, read at an index. At one batch entry the kernel loads the encoder outputs `[1, S, E]`,
  the weight matrix `[D, E]` and the mask column `[1, S, 1]`, multiplies outputs by the transposed weights on the
  matrix unit into a zero accumulator, multiplies row `s` of the product by the mask's entry `s`, and stores the
  result `[1, S, D]`. Changes of float format are the identity on the extended reals, recasts move no data, and the
  matrix product into zero is the plain sum; so entry `(0, s, d)` of the stored block is the masked projected key
  `(∑ e, eo (s, e) · w (d, e)) · mk s` of the loaded blocks.
-/
import proofs.«158329_j59450937311976_2_alg».proof.Proof.Gen.KernelIdeal.Skeleton
import proofs.«158329_j59450937311976_2_alg».proof.Proof.Spec
import proofs.«158329_j59450937311976_2_alg».proof.Proof.LibMatmulRows
import proofs.«158329_j59450937311976_2_alg».proof.Proof.LibColumn
import Idealize.ShloMosaic.Lib.ValueLayout
import Idealize.ShloMosaic.Lib.Pipeline.Value

noncomputable section

open scoped BigOperators
open Idealize.ShloMosaic Idealize.ShloMosaic.ValueIdx Cert.KernelIdeal Cert.KernelIdeal.Gen

namespace Cert.Attn.Body0

/-- Entry `(u, s, d)` of the block the first kernel stores is the masked projected key of the loaded blocks. -/
theorem key_block (x0 : Vec Ideal S1x1024x1024 .f32) (x1 : Vec Ideal S1024x1024 .f32) (x2 : Vec Ideal S1x1024x1 .f32)
    (u : Fin 1) (s d : Fin 1024) :
    k0_pay1 (F := Ideal) x0 x1 x2 (ix3 u s d)
      = Cert.Attn.key (fun s e => x0 (ix3 (0 : Fin 1) s e)) (fun d e => x1 (ix2 d e))
          (fun s => x2 (ix3 (0 : Fin 1) s (0 : Fin 1))) s d := by
  unfold k0_pay1 Cert.Attn.key
  refine (shapeCast_ab_1ab_apply _ _ u s d).trans ?_
  refine congrArg₂ (fun p q : EReal => p * q) ?_ ?_
  · refine (MatmulRows.matmul_zero_apply dot_S1024x1024_S1024x1024_S1024x1024_1_1_0_0_n_n rfl rfl rfl rfl rfl rfl none _ _ s d).trans ?_
    refine Finset.sum_congr rfl fun e _ => ?_
    refine congrArg₂ (fun p q : EReal => p * q) ?_ rfl
    exact shapeCast_1ab_ab_apply x0 _ s e
  · refine (Cert.Lib.Column.broadcastTo_a1_ab_apply _ _ s d).trans ?_
    exact shapeCast_1ab_ab_apply x2 _ s (0 : Fin 1)

end Cert.Attn.Body0

end
-- ==== Proof.Array0.lean ====
/-
  The first kernel's result array. The kernel runs once per batch entry `b` (a grid of 16 points); at point `b` its
  four windows are batch entry `b` of the encoder outputs, the whole weight matrix, batch entry `b` of the mask column
  and batch entry `b` of the result, each a block that spans its other axes whole. What point `b` writes back is
  therefore batch entry `b` of ONE function of the arrays the kernel finds: the masked projected keys. The sixteen
  blocks tile the result, so the result array ends holding that function.
-/
import proofs.«158329_j59450937311976_2_alg».proof.Proof.Gen.KernelIdeal.Frame
import proofs.«158329_j59450937311976_2_alg».proof.Proof.Spec
import proofs.«158329_j59450937311976_2_alg».proof.Proof.Body0

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Cert.Attn.Array0

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The masked projected keys of every batch entry, from the encoder outputs `a1`, the weights `a4` and the mask
    as a column `[16, 1024, 1]`. -/
def keysOf (a1 : S16x1024x1024.Idx → EReal) (a4 : S1024x1024.Idx → EReal) (col : S16x1024x1.Idx → EReal) :
    S16x1024x1024.Idx → EReal :=
  fun i => Cert.Attn.key (fun s e => a1 (ix3 (i 0) s e)) (fun d e => a4 (ix2 d e))
    (fun s => col (ix3 (i 0) s (0 : Fin 1))) (i 1) (i 2)

/-- The stored block against the array function: if the loaded blocks are batch entry `b` of the arrays, entry `j` of
    the stored block is the keys' entry at the array index `i` whose batch coordinate is `b` and whose other two
    coordinates are `j`'s. -/
theorem block_eq (a1 : S16x1024x1024.Idx → EReal) (a4 : S1024x1024.Idx → EReal) (col : S16x1024x1.Idx → EReal)
    (x0 : Vec Ideal S1x1024x1024 .f32) (x1 : Vec Ideal S1024x1024 .f32) (x2 : Vec Ideal S1x1024x1 .f32) (b : Fin 16)
    (h0 : ∀ s e : Fin 1024, x0 (ix3 (0 : Fin 1) s e) = a1 (ix3 b s e))
    (h1 : ∀ d e : Fin 1024, x1 (ix2 d e) = a4 (ix2 d e))
    (h2 : ∀ s : Fin 1024, x2 (ix3 (0 : Fin 1) s (0 : Fin 1)) = col (ix3 b s (0 : Fin 1)))
    (j : S1x1024x1024.Idx) (i : S16x1024x1024.Idx)
    (hi0 : (i 0).val = b.val) (hi1 : (i 1).val = (j 1).val) (hi2 : (i 2).val = (j 2).val) :
    k0_pay1 (F := Ideal) x0 x1 x2 j = keysOf a1 a4 col i := by
  obtain ⟨u, s, d, rfl⟩ : ∃ (u : Fin 1) (s d : Fin 1024), j = ix3 u s d := ⟨j 0, j 1, j 2, eq_ix3 j⟩
  obtain ⟨b', s', d', rfl⟩ : ∃ (b' : Fin 16) (s' d' : Fin 1024), i = ix3 b' s' d' := ⟨i 0, i 1, i 2, eq_ix3 i⟩
  obtain rfl : b' = b := Fin.ext hi0
  obtain rfl : s' = s := Fin.ext hi1
  obtain rfl : d' = d := Fin.ext hi2
  refine (Cert.Attn.Body0.key_block x0 x1 x2 u s' d').trans ?_
  show Cert.Attn.key _ _ _ s' d' = Cert.Attn.key _ _ _ s' d'
  have e0 : (fun s e : Fin 1024 => x0 (ix3 (0 : Fin 1) s e)) = fun s e => a1 (ix3 b' s e) := funext fun s => funext fun e => h0 s e
  have e1 : (fun d e : Fin 1024 => x1 (ix2 d e)) = fun d e => a4 (ix2 d e) := funext fun d => funext fun e => h1 d e
  have e2 : (fun s : Fin 1024 => x2 (ix3 (0 : Fin 1) s (0 : Fin 1))) = fun s => col (ix3 b' s (0 : Fin 1)) := funext fun s => h2 s
  rw [e0, e1, e2]

/-- The printed index maps over the grid: point `t` is batch entry `t` for the three batched windows, and the weight
    matrix's one block for every point. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- What point `t` writes back is block `t` of the keys of the arrays the kernel finds. -/
theorem flushed_eq (c : Dev nD) (t : Fin cfg0.N) :
    (dat0 V c).flushed 3 t
      = ((cfg0.win 3).blk t).view.read (Elt Ideal) (keysOf (V c main_arg1) (V c main_arg4) (V c main_v0)) := by
  show (cfg0.win 3).cut (grid0.coords t) ((dat0 V c).after 3 t) = _
  rw [after0_3]
  unfold out0_3
  rw [View.canon_unit_zero hz3]
  simp only [View.ld_unit_zero (S := S1x1024x1024) hz3, View.ld_unit_zero (S := S1024x1024) hz2, View.ld_unit_zero (S := S1x1024x1) hz3]
  obtain ⟨e0, e1, e2, e3, e4, e5, e6, e7, e8, e9, e10⟩ := idx_facts t
  have ht : t.val < 16 := by have := t.isLt; have hN : cfg0.N = 16 := N_0; omega
  funext j
  refine block_eq (V c main_arg1) (V c main_arg4) (V c main_v0) _ _ _ ⟨t.val, ht⟩ ?_ ?_ ?_ j _ ?_ ?_ ?_
  · intro s e
    show V c main_arg1 (((cfg0.win 0).blk t).view.emb (ix3 (0 : Fin 1) s e)) = V c main_arg1 (ix3 ⟨t.val, ht⟩ s e)
    refine congrArg (V c main_arg1) (funext fun a => Fin.ext ?_)
    match a with
    | ⟨0, _⟩ => show win0_0.index t (0 : Fin 3) * 1 + 1 * 0 = t.val; omega
    | ⟨1, _⟩ => show win0_0.index t (1 : Fin 3) * 1024 + 1 * s.val = s.val; omega
    | ⟨2, _⟩ => show win0_0.index t (2 : Fin 3) * 1024 + 1 * e.val = e.val; omega
  · intro d e
    show V c main_arg4 (((cfg0.win 1).blk t).view.emb (ix2 d e)) = V c main_arg4 (ix2 d e)
    refine congrArg (V c main_arg4) (funext fun a => Fin.ext ?_)
    match a with
    | ⟨0, _⟩ => show win0_1.index t (0 : Fin 2) * 1024 + 1 * d.val = d.val; omega
    | ⟨1, _⟩ => show win0_1.index t (1 : Fin 2) * 1024 + 1 * e.val = e.val; omega
  · intro s
    show V c main_v0 (((cfg0.win 2).blk t).view.emb (ix3 (0 : Fin 1) s (0 : Fin 1))) = V c main_v0 (ix3 ⟨t.val, ht⟩ s (0 : Fin 1))
    refine congrArg (V c main_v0) (funext fun a => Fin.ext ?_)
    match a with
    | ⟨0, _⟩ => show win0_2.index t (0 : Fin 3) * 1 + 1 * 0 = t.val; omega
    | ⟨1, _⟩ => show win0_2.index t (1 : Fin 3) * 1024 + 1 * s.val = s.val; omega
    | ⟨2, _⟩ => show win0_2.index t (2 : Fin 3) * 1 + 1 * 0 = 0; omega
  · show win0_3.index t (0 : Fin 3) * 1 + 1 * (j 0).val = t.val
    have hj : (j 0).val < 1 := (j 0).isLt
    omega
  · show win0_3.index t (1 : Fin 3) * 1024 + 1 * (j 1).val = (j 1).val; omega
  · show win0_3.index t (2 : Fin 3) * 1024 + 1 * (j 2).val = (j 2).val; omega

/-- An index of the result array is in point `t`'s block iff each coordinate is in the block's range on its axis. -/
theorem mem_blk (t : Fin cfg0.N) (i : S16x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v2).slice (win0_3.rect t)).set ↔ _
  rw [View.set_slice_whole, Rect.mem_set_unit]
  exact Iff.rfl

/-- Every index of the result array is in the block of the point that is its batch coordinate. -/
theorem cover (i : S16x1024x1024.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 1024 := (i 1).isLt
  have hi2 : (i 2).val < 1024 := (i 2).isLt
  let t : Fin cfg0.N := ⟨(i 0).val, by omega⟩
  obtain ⟨e0, e1, e2, e3, e4, e5, e6, e7, e8, e9, e10⟩ := idx_facts t
  have htv : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The result array after the kernel: the masked projected keys of the arrays the kernel finds. -/
theorem final (c : Dev nD) :
    (dat0 V c).arrAt 3 cfg0.N = keysOf (V c main_arg1) (V c main_arg4) (V c main_v0) :=
  (dat0 V c).arrAt_eq_of_cover 3 _ (fun t _ => flushed_eq V c t) cover

end Cert.Attn.Array0

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.LibAxisMax.lean ====
/-
  The maximum along the second axis of a matrix, read at an index. A reduction by maximum of an [A, B] array along its
  second axis, started from the word of negative infinity, has at row `r` the value of the fold of `max` over the
  entries `v (r, k)` of that row, started from what that word denotes. On the extended reals `max` is commutative and
  associative, so the fold has no order.
-/
import Idealize.ShloMosaic.PureOps.Ideal.Laws
import Idealize.ShloMosaic.Lib.ValueIdx

noncomputable section

open Idealize.ShloMosaic Idealize.ShloMosaic.ValueIdx

namespace Cert.Lib.AxisMax

/-- The maximum along the second axis (the lanes) at row `r`. -/
theorem laneMax_apply {A B : ℕ} (v : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (r : Fin A) :
    multiReduction (F := Ideal) .maximumf [1] ⟨1, ![A]⟩ v 0xFF800000#32 h hφ hacc (ix1 r)
      = (Finset.univ : Finset (Fin B)).fold max (Ideal.ofBits .f32 0xFF800000#32) (fun k => v (ix2 r k)) := by
  refine (Ideal.multiReduction_maximumf_single v 0xFF800000#32 h hφ hacc (ix1 r)).trans ?_
  have hf : (v ∘ h.lift (ix1 r)) = fun k : Fin B => v (ix2 r k) := funext fun k => congrArg v (funext fun c => by
    match c with
    | ⟨0, _⟩ => exact Fin.ext rfl
    | ⟨1, _⟩ => exact Fin.ext rfl)
  exact congrArg (fun f => Finset.fold max (Ideal.ofBits .f32 0xFF800000#32) f (Finset.univ : Finset (Fin B))) hf

end Cert.Lib.AxisMax

end
-- ==== Proof.LibAxisSum.lean ====
/-
  Sums along one axis of a matrix, read at an index. A reduction by addition of an [A, B] array along its second axis,
  started from the zero word, has at `r` the value `∑ k, v (r, k)`; along its first axis it has at `c` the value
  `∑ r, v (r, c)`. On the extended reals the sum has no rounding and no order.
-/
import Idealize.ShloMosaic.PureOps.Ideal.Laws
import Idealize.ShloMosaic.Lib.ValueIdx

noncomputable section

open scoped BigOperators
open Idealize.ShloMosaic Idealize.ShloMosaic.ValueIdx

namespace Cert.Lib.AxisSum

/-- The sum along the second axis (the lanes) at row `r`. -/
theorem laneSum_apply {A B : ℕ} (v : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (r : Fin A) :
    multiReduction (F := Ideal) .add [1] ⟨1, ![A]⟩ v 0x00000000#32 h hφ hacc (ix1 r) = ∑ k : Fin B, v (ix2 r k) := by
  refine (Ideal.multiReduction_add_single v 0x00000000#32 h hφ hacc (ix1 r)).trans ?_
  refine Finset.sum_congr rfl fun k _ => congrArg v ?_
  funext c
  match c with
  | ⟨0, _⟩ => exact Fin.ext rfl
  | ⟨1, _⟩ => exact Fin.ext rfl

/-- The sum along the first axis (the rows) at column `c`. -/
theorem rowSum_apply {A B : ℕ} (v : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (c : Fin B) :
    multiReduction (F := Ideal) .add [0] ⟨1, ![B]⟩ v 0x00000000#32 h hφ hacc (ix1 c) = ∑ r : Fin A, v (ix2 r c) := by
  refine (Ideal.multiReduction_add_single v 0x00000000#32 h hφ hacc (ix1 c)).trans ?_
  refine Finset.sum_congr rfl fun k _ => congrArg v ?_
  funext a
  match a with
  | ⟨0, _⟩ => exact Fin.ext rfl
  | ⟨1, _⟩ => exact Fin.ext rfl

end Cert.Lib.AxisSum

end
-- ==== Proof.Body1.lean ====
/-
  The second kernel's blocks, read at an index. At one batch entry the kernel loads the queries `[1, T, D]`, the masked
  projected keys `[1, S, D]`, the encoder values `[1, S, D]` and the mask row `[1, 1, S]`. It multiplies queries by
  the transposed keys on the matrix unit into a zero accumulator and multiplies column `s` by the mask's entry `s`
  (the energies, stored); multiplies by the mask again (the logits); subtracts each row's maximum, exponentiates,
  multiplies by the mask, and divides by the row's sum plus a small constant (the weights, stored); and multiplies
  the weights by the values on the matrix unit into a zero accumulator (the contexts, stored).

  On the extended reals a change of float format is the identity, recasts and broadcasts move no data, a matrix
  product into zero is the plain sum, a lane reduction by addition from the zero word is the plain sum and a lane
  reduction by maximum from the word of negative infinity is the fold of `max` from that word's value. So the three
  stored blocks are, entry by entry, the energy, the weight and the context of the specification at the loaded blocks.
-/
import proofs.«158329_j59450937311976_2_alg».proof.Proof.Gen.KernelIdeal.Skeleton
import proofs.«158329_j59450937311976_2_alg».proof.Proof.Spec
import proofs.«158329_j59450937311976_2_alg».proof.Proof.LibMatmulRows
import proofs.«158329_j59450937311976_2_alg».proof.Proof.LibMatmulPlain
import proofs.«158329_j59450937311976_2_alg».proof.Proof.LibColumn
import proofs.«158329_j59450937311976_2_alg».proof.Proof.LibAxisMax
import proofs.«158329_j59450937311976_2_alg».proof.Proof.LibAxisSum
import Idealize.ShloMosaic.Lib.ValueLayout
import Idealize.ShloMosaic.Lib.Pipeline.Value

noncomputable section

open scoped BigOperators
open Idealize.ShloMosaic Idealize.ShloMosaic.ValueIdx Cert.KernelIdeal Cert.KernelIdeal.Gen

namespace Cert.Attn.Body1

/-! ## The mask row and the energies -/

/-- The loaded mask row `[1, 1, S]`, recast to `[1, S]` and repeated over the `T` query rows, reads its entry `s`. -/
theorem mask_at (x3 : Vec Ideal S1x1x1024 .f32) (t : Fin 512) (s : Fin 1024) :
    broadcastTo S512x1024 (k1_pay3 (F := Ideal) x3) broadcasts_S1x1024_S512x1024 (ix2 t s)
      = x3 (ix3 (0 : Fin 1) (0 : Fin 1) s) := by
  refine (broadcastTo_1b_ab_apply _ _ t s).trans ?_
  unfold k1_pay3
  exact shapeCast_1ab_ab_apply x3 _ (0 : Fin 1) s

/-- Entry `(t, s)` of the energies the kernel computes is the masked energy of the loaded blocks. -/
theorem energy_block (x0 : Vec Ideal S1x512x1024 .f32) (x1 : Vec Ideal S1x1024x1024 .bf16) (x3 : Vec Ideal S1x1x1024 .f32)
    (t : Fin 512) (s : Fin 1024) :
    k1_pay4 (F := Ideal) x0 x1 x3 (ix2 t s)
      = Cert.Attn.energy (fun t d => x0 (ix3 (0 : Fin 1) t d)) (fun s d => x1 (ix3 (0 : Fin 1) s d))
          (fun s => x3 (ix3 (0 : Fin 1) (0 : Fin 1) s)) t s := by
  unfold k1_pay4 Cert.Attn.energy
  refine congrArg₂ (fun p q : EReal => p * q) ?_ (mask_at x3 t s)
  refine (MatmulRows.matmul_zero_apply dot_S512x1024_S1024x1024_S512x1024_1_1_0_0_n_n rfl rfl rfl rfl rfl rfl none _ _ t s).trans ?_
  refine Finset.sum_congr rfl fun d _ => ?_
  refine congrArg₂ (fun p q : EReal => p * q) ?_ ?_
  · exact shapeCast_1ab_ab_apply x0 _ t d
  · exact shapeCast_1ab_ab_apply x1 _ s d

/-! ## The masked softmax, stage by stage, of an energy array `en` and the loaded mask row -/

/-- The logits: the energies multiplied by the mask row. -/
def lg (en : FVec Ideal S512x1024 .f32) (x3 : Vec Ideal S1x1x1024 .f32) : FVec Ideal S512x1024 .f32 :=
  mulf en (broadcastTo S512x1024 (k1_pay3 (F := Ideal) x3) broadcasts_S1x1024_S512x1024)

/-- Each row's greatest logit. -/
def tp (en : FVec Ideal S512x1024 .f32) (x3 : Vec Ideal S1x1x1024 .f32) : FVec Ideal S512 .f32 :=
  multiReduction .maximumf [1] S512 (lg en x3) 0xFF800000#32 reduces_S512x1024_S512 (.inl rfl) rfl

/-- The unnormalized weights. -/
def ms (en : FVec Ideal S512x1024 .f32) (x3 : Vec Ideal S1x1x1024 .f32) : FVec Ideal S512x1024 .f32 :=
  mulf (exp (subf (lg en x3)
      (broadcastTo S512x1024 (shapeCast S512x1 (tp en x3) shapeCasts_S512_S512x1) broadcasts_S512x1_S512x1024)))
    (broadcastTo S512x1024 (k1_pay3 (F := Ideal) x3) broadcasts_S1x1024_S512x1024)

/-- Each row's normalizer, as a column. -/
def tot (en : FVec Ideal S512x1024 .f32) (x3 : Vec Ideal S1x1x1024 .f32) : FVec Ideal S512x1 .f32 :=
  addf (shapeCast S512x1 (multiReduction .add [1] S512 (ms en x3) 0x00000000#32 reduces_S512x1024_S512 (.inl rfl) rfl)
      shapeCasts_S512_S512x1)
    (broadcast S512x1 (Scalar.ofBits (F := Ideal) .f32 0x358637BD#32))

/-- The weights. -/
def wt (en : FVec Ideal S512x1024 .f32) (x3 : Vec Ideal S1x1x1024 .f32) : FVec Ideal S512x1024 .f32 :=
  divf (ms en x3) (broadcastTo S512x1024 (tot en x3) broadcasts_S512x1_S512x1024)

/-- The kernel's weights are these stages of its energies. -/
theorem pay5_eq (x0 : Vec Ideal S1x512x1024 .f32) (x1 : Vec Ideal S1x1024x1024 .bf16) (x3 : Vec Ideal S1x1x1024 .f32) :
    k1_pay5 (F := Ideal) x0 x1 x3 = wt (k1_pay4 (F := Ideal) x0 x1 x3) x3 := rfl

/-- A vector `[T]` recast to a column and repeated along the lanes reads, at `(t, s)`, its entry `t`. -/
theorem column_at (v : FVec Ideal S512 .f32) (t : Fin 512) (s : Fin 1024) :
    broadcastTo S512x1024 (shapeCast S512x1 v shapeCasts_S512_S512x1) broadcasts_S512x1_S512x1024 (ix2 t s) = v (ix1 t) :=
  (Cert.Lib.Column.broadcastTo_a1_ab_apply _ _ t s).trans (Cert.Lib.Column.shapeCast_a_a1_apply v _ t (0 : Fin 1))

variable (en : FVec Ideal S512x1024 .f32) (x3 : Vec Ideal S1x1x1024 .f32)

theorem lg_at (t : Fin 512) (s : Fin 1024) :
    lg en x3 (ix2 t s) = Cert.Attn.logit (fun t s => en (ix2 t s)) (fun s => x3 (ix3 (0 : Fin 1) (0 : Fin 1) s)) t s :=
  congrArg (fun q : EReal => en (ix2 t s) * q) (mask_at x3 t s)

theorem tp_at (t : Fin 512) :
    tp en x3 (ix1 t) = Cert.Attn.top (fun t s => en (ix2 t s)) (fun s => x3 (ix3 (0 : Fin 1) (0 : Fin 1) s)) t := by
  unfold tp Cert.Attn.top
  refine (Cert.Lib.AxisMax.laneMax_apply (lg en x3) _ _ _ t).trans ?_
  exact congrArg (fun f => Finset.fold max (Ideal.ofBits .f32 0xFF800000#32) f (Finset.univ : Finset (Fin 1024)))
    (funext fun k => lg_at en x3 t k)

theorem ms_at (t : Fin 512) (s : Fin 1024) :
    ms en x3 (ix2 t s) = Cert.Attn.mass (fun t s => en (ix2 t s)) (fun s => x3 (ix3 (0 : Fin 1) (0 : Fin 1) s)) t s := by
  unfold ms Cert.Attn.mass
  refine congrArg₂ (fun p q : EReal => p * q) ?_ (mask_at x3 t s)
  refine congrArg Ideal.exp ?_
  exact congrArg₂ (fun p q : EReal => p - q) (lg_at en x3 t s) ((column_at _ t s).trans (tp_at en x3 t))

theorem tot_at (t : Fin 512) (s : Fin 1024) :
    broadcastTo S512x1024 (tot en x3) broadcasts_S512x1_S512x1024 (ix2 t s)
      = Cert.Attn.total (fun t s => en (ix2 t s)) (fun s => x3 (ix3 (0 : Fin 1) (0 : Fin 1) s)) t := by
  unfold tot Cert.Attn.total
  refine (Cert.Lib.Column.broadcastTo_a1_ab_apply _ _ t s).trans ?_
  refine congrArg₂ (fun p q : EReal => p + q) ?_ rfl
  refine (Cert.Lib.Column.shapeCast_a_a1_apply _ _ t (0 : Fin 1)).trans ?_
  refine (Cert.Lib.AxisSum.laneSum_apply (ms en x3) _ _ _ t).trans ?_
  exact Finset.sum_congr rfl fun k _ => ms_at en x3 t k

theorem wt_at (t : Fin 512) (s : Fin 1024) :
    wt en x3 (ix2 t s) = Cert.Attn.weight (fun t s => en (ix2 t s)) (fun s => x3 (ix3 (0 : Fin 1) (0 : Fin 1) s)) t s := by
  unfold wt Cert.Attn.weight
  exact congrArg₂ Ideal.div (ms_at en x3 t s) (tot_at en x3 t s)

/-! ## The three stored blocks -/

/-- The stored energies: entry `(u, t, s)` is the masked energy of the loaded blocks. -/
theorem energies_block (x0 : Vec Ideal S1x512x1024 .f32) (x1 : Vec Ideal S1x1024x1024 .bf16) (x3 : Vec Ideal S1x1x1024 .f32)
    (u : Fin 1) (t : Fin 512) (s : Fin 1024) :
    k1_pay2 (F := Ideal) (k1_pay4 (F := Ideal) x0 x1 x3) (ix3 u t s)
      = Cert.Attn.energy (fun t d => x0 (ix3 (0 : Fin 1) t d)) (fun s d => x1 (ix3 (0 : Fin 1) s d))
          (fun s => x3 (ix3 (0 : Fin 1) (0 : Fin 1) s)) t s := by
  unfold k1_pay2
  exact (shapeCast_ab_1ab_apply _ _ u t s).trans (energy_block x0 x1 x3 t s)

/-- The kernel's weights at `(t, s)`: the masked softmax of the loaded blocks' energies. -/
theorem weight_block (x0 : Vec Ideal S1x512x1024 .f32) (x1 : Vec Ideal S1x1024x1024 .bf16) (x3 : Vec Ideal S1x1x1024 .f32)
    (t : Fin 512) (s : Fin 1024) :
    k1_pay5 (F := Ideal) x0 x1 x3 (ix2 t s)
      = Cert.Attn.weight (Cert.Attn.energy (fun t d => x0 (ix3 (0 : Fin 1) t d)) (fun s d => x1 (ix3 (0 : Fin 1) s d))
          (fun s => x3 (ix3 (0 : Fin 1) (0 : Fin 1) s))) (fun s => x3 (ix3 (0 : Fin 1) (0 : Fin 1) s)) t s := by
  rw [pay5_eq]
  refine (wt_at _ x3 t s).trans ?_
  exact congrArg (fun e => Cert.Attn.weight e (fun s => x3 (ix3 (0 : Fin 1) (0 : Fin 1) s)) t s)
    (funext fun t' => funext fun s' => energy_block x0 x1 x3 t' s')

/-- The stored weights. -/
theorem weights_block (x0 : Vec Ideal S1x512x1024 .f32) (x1 : Vec Ideal S1x1024x1024 .bf16) (x3 : Vec Ideal S1x1x1024 .f32)
    (u : Fin 1) (t : Fin 512) (s : Fin 1024) :
    k1_pay1 (F := Ideal) (k1_pay5 (F := Ideal) x0 x1 x3) (ix3 u t s)
      = Cert.Attn.weight (Cert.Attn.energy (fun t d => x0 (ix3 (0 : Fin 1) t d)) (fun s d => x1 (ix3 (0 : Fin 1) s d))
          (fun s => x3 (ix3 (0 : Fin 1) (0 : Fin 1) s))) (fun s => x3 (ix3 (0 : Fin 1) (0 : Fin 1) s)) t s := by
  unfold k1_pay1
  exact (shapeCast_ab_1ab_apply _ _ u t s).trans (weight_block x0 x1 x3 t s)

/-- The stored contexts: entry `(u, t, d)` is the weights applied to the loaded values. -/
theorem contexts_block (x0 : Vec Ideal S1x512x1024 .f32) (x1 : Vec Ideal S1x1024x1024 .bf16) (x2 : Vec Ideal S1x1024x1024 .f32)
    (x3 : Vec Ideal S1x1x1024 .f32) (u : Fin 1) (t : Fin 512) (d : Fin 1024) :
    k1_pay6 (F := Ideal) x0 x1 x2 x3 (ix3 u t d)
      = Cert.Attn.context
          (Cert.Attn.weight (Cert.Attn.energy (fun t d => x0 (ix3 (0 : Fin 1) t d)) (fun s d => x1 (ix3 (0 : Fin 1) s d))
            (fun s => x3 (ix3 (0 : Fin 1) (0 : Fin 1) s))) (fun s => x3 (ix3 (0 : Fin 1) (0 : Fin 1) s)))
          (fun s d => x2 (ix3 (0 : Fin 1) s d)) t d := by
  unfold k1_pay6 Cert.Attn.context
  refine (shapeCast_ab_1ab_apply _ _ u t d).trans ?_
  refine (MatmulPlain.matmul_zero_apply dot_S512x1024_S1024x1024_S512x1024_1_0_0_1_n_n rfl rfl rfl rfl rfl rfl none _ _ t d).trans ?_
  refine Finset.sum_congr rfl fun s _ => ?_
  refine congrArg₂ (fun p q : EReal => p * q) ?_ ?_
  · exact weight_block x0 x1 x3 t s
  · exact shapeCast_1ab_ab_apply x2 _ s d

end Cert.Attn.Body1

end
-- ==== Proof.Array1.lean ====
/-
  The second kernel's three result arrays. The kernel runs once per batch entry `b` (a grid of 16 points); at point `b`
  every one of its seven windows is batch entry `b` of its array, a block that spans the other two axes whole. What
  point `b` writes back to a result is therefore batch entry `b` of ONE function of the arrays the kernel finds —
  the masked energies, the attention weights, the contexts — and the sixteen blocks tile each result, so each result
  array ends holding its function.
-/
import proofs.«158329_j59450937311976_2_alg».proof.Proof.Gen.KernelIdeal.Frame
import proofs.«158329_j59450937311976_2_alg».proof.Proof.Spec
import proofs.«158329_j59450937311976_2_alg».proof.Proof.Body1

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Cert.Attn.Array1

variable (V : (c : Dev nD) → (b : Ref sig .tc) → Buf (Elt Ideal) ((c : Thread nD τ).loc b))

theorem hz3 : (![0, 0, 0] : Fin 3 → Nat) = fun _ => 0 := funext fun a => by fin_cases a <;> rfl

/-! ## The three results as functions of the arrays the kernel finds: the queries `a0`, the keys `ky`, the values
    `a2` and the mask as a row `[16, 1, 1024]` -/

def energiesOf (a0 : S16x512x1024.Idx → EReal) (ky : S16x1024x1024.Idx → EReal) (rw : S16x1x1024.Idx → EReal) :
    S16x512x1024.Idx → EReal :=
  fun i => Cert.Attn.energy (fun t d => a0 (ix3 (i 0) t d)) (fun s d => ky (ix3 (i 0) s d))
    (fun s => rw (ix3 (i 0) (0 : Fin 1) s)) (i 1) (i 2)

def weightsOf (a0 : S16x512x1024.Idx → EReal) (ky : S16x1024x1024.Idx → EReal) (rw : S16x1x1024.Idx → EReal) :
    S16x512x1024.Idx → EReal :=
  fun i => Cert.Attn.weight (Cert.Attn.energy (fun t d => a0 (ix3 (i 0) t d)) (fun s d => ky (ix3 (i 0) s d))
    (fun s => rw (ix3 (i 0) (0 : Fin 1) s))) (fun s => rw (ix3 (i 0) (0 : Fin 1) s)) (i 1) (i 2)

def contextsOf (a0 : S16x512x1024.Idx → EReal) (ky a2 : S16x1024x1024.Idx → EReal) (rw : S16x1x1024.Idx → EReal) :
    S16x512x1024.Idx → EReal :=
  fun i => Cert.Attn.context (Cert.Attn.weight (Cert.Attn.energy (fun t d => a0 (ix3 (i 0) t d)) (fun s d => ky (ix3 (i 0) s d))
    (fun s => rw (ix3 (i 0) (0 : Fin 1) s))) (fun s => rw (ix3 (i 0) (0 : Fin 1) s))) (fun s d => a2 (ix3 (i 0) s d)) (i 1) (i 2)

/-! ## A stored block against its array function: if the loaded blocks are batch entry `b` of the arrays, entry `j`
    of the stored block is the function's entry at the array index `i` whose batch coordinate is `b` and whose other
    two coordinates are `j`'s -/

theorem energies_block_eq (a0 : S16x512x1024.Idx → EReal) (ky a2 : S16x1024x1024.Idx → EReal) (rw : S16x1x1024.Idx → EReal)
    (x0 : Vec Ideal S1x512x1024 .f32) (x1 : Vec Ideal S1x1024x1024 .bf16) (x2 : Vec Ideal S1x1024x1024 .f32)
    (x3 : Vec Ideal S1x1x1024 .f32) (b : Fin 16)
    (h0 : ∀ (t : Fin 512) (d : Fin 1024), x0 (ix3 (0 : Fin 1) t d) = a0 (ix3 b t d))
    (h1 : ∀ s d : Fin 1024, x1 (ix3 (0 : Fin 1) s d) = ky (ix3 b s d))
    (h2 : ∀ s d : Fin 1024, x2 (ix3 (0 : Fin 1) s d) = a2 (ix3 b s d))
    (h3 : ∀ s : Fin 1024, x3 (ix3 (0 : Fin 1) (0 : Fin 1) s) = rw (ix3 b (0 : Fin 1) s))
    (j : S1x512x1024.Idx) (i : S16x512x1024.Idx)
    (hi0 : (i 0).val = b.val) (hi1 : (i 1).val = (j 1).val) (hi2 : (i 2).val = (j 2).val) :
    k1_pay2 (F := Ideal) (k1_pay4 (F := Ideal) x0 x1 x3) j = energiesOf a0 ky rw i := by
  obtain ⟨u, p, q, rfl⟩ : ∃ (u : Fin 1) (p : Fin 512) (q : Fin 1024), j = ix3 u p q := ⟨j 0, j 1, j 2, eq_ix3 j⟩
  obtain ⟨b', p', q', rfl⟩ : ∃ (b' : Fin 16) (p' : Fin 512) (q' : Fin 1024), i = ix3 b' p' q' := ⟨i 0, i 1, i 2, eq_ix3 i⟩
  obtain rfl : b' = b := Fin.ext hi0
  obtain rfl : p' = p := Fin.ext hi1
  obtain rfl : q' = q := Fin.ext hi2
  have e0 : (fun (t : Fin 512) (d : Fin 1024) => x0 (ix3 (0 : Fin 1) t d)) = fun t d => a0 (ix3 b' t d) := funext fun t => funext fun d => h0 t d
  have e1 : (fun s d : Fin 1024 => x1 (ix3 (0 : Fin 1) s d)) = fun s d => ky (ix3 b' s d) := funext fun s => funext fun d => h1 s d
  have e2 : (fun s d : Fin 1024 => x2 (ix3 (0 : Fin 1) s d)) = fun s d => a2 (ix3 b' s d) := funext fun s => funext fun d => h2 s d
  have e3 : (fun s : Fin 1024 => x3 (ix3 (0 : Fin 1) (0 : Fin 1) s)) = fun s => rw (ix3 b' (0 : Fin 1) s) := funext fun s => h3 s
  refine (Cert.Attn.Body1.energies_block x0 x1 x3 u p' q').trans ?_
  show Cert.Attn.energy _ _ _ p' q' = Cert.Attn.energy _ _ _ p' q'
  rw [e0, e1, e3]

theorem weights_block_eq (a0 : S16x512x1024.Idx → EReal) (ky a2 : S16x1024x1024.Idx → EReal) (rw : S16x1x1024.Idx → EReal)
    (x0 : Vec Ideal S1x512x1024 .f32) (x1 : Vec Ideal S1x1024x1024 .bf16) (x2 : Vec Ideal S1x1024x1024 .f32)
    (x3 : Vec Ideal S1x1x1024 .f32) (b : Fin 16)
    (h0 : ∀ (t : Fin 512) (d : Fin 1024), x0 (ix3 (0 : Fin 1) t d) = a0 (ix3 b t d))
    (h1 : ∀ s d : Fin 1024, x1 (ix3 (0 : Fin 1) s d) = ky (ix3 b s d))
    (h2 : ∀ s d : Fin 1024, x2 (ix3 (0 : Fin 1) s d) = a2 (ix3 b s d))
    (h3 : ∀ s : Fin 1024, x3 (ix3 (0 : Fin 1) (0 : Fin 1) s) = rw (ix3 b (0 : Fin 1) s))
    (j : S1x512x1024.Idx) (i : S16x512x1024.Idx)
    (hi0 : (i 0).val = b.val) (hi1 : (i 1).val = (j 1).val) (hi2 : (i 2).val = (j 2).val) :
    k1_pay1 (F := Ideal) (k1_pay5 (F := Ideal) x0 x1 x3) j = weightsOf a0 ky rw i := by
  obtain ⟨u, p, q, rfl⟩ : ∃ (u : Fin 1) (p : Fin 512) (q : Fin 1024), j = ix3 u p q := ⟨j 0, j 1, j 2, eq_ix3 j⟩
  obtain ⟨b', p', q', rfl⟩ : ∃ (b' : Fin 16) (p' : Fin 512) (q' : Fin 1024), i = ix3 b' p' q' := ⟨i 0, i 1, i 2, eq_ix3 i⟩
  obtain rfl : b' = b := Fin.ext hi0
  obtain rfl : p' = p := Fin.ext hi1
  obtain rfl : q' = q := Fin.ext hi2
  have e0 : (fun (t : Fin 512) (d : Fin 1024) => x0 (ix3 (0 : Fin 1) t d)) = fun t d => a0 (ix3 b' t d) := funext fun t => funext fun d => h0 t d
  have e1 : (fun s d : Fin 1024 => x1 (ix3 (0 : Fin 1) s d)) = fun s d => ky (ix3 b' s d) := funext fun s => funext fun d => h1 s d
  have e2 : (fun s d : Fin 1024 => x2 (ix3 (0 : Fin 1) s d)) = fun s d => a2 (ix3 b' s d) := funext fun s => funext fun d => h2 s d
  have e3 : (fun s : Fin 1024 => x3 (ix3 (0 : Fin 1) (0 : Fin 1) s)) = fun s => rw (ix3 b' (0 : Fin 1) s) := funext fun s => h3 s
  refine (Cert.Attn.Body1.weights_block x0 x1 x3 u p' q').trans ?_
  show Cert.Attn.weight (Cert.Attn.energy _ _ _) _ p' q' = Cert.Attn.weight (Cert.Attn.energy _ _ _) _ p' q'
  rw [e0, e1, e3]

theorem contexts_block_eq (a0 : S16x512x1024.Idx → EReal) (ky a2 : S16x1024x1024.Idx → EReal) (rw : S16x1x1024.Idx → EReal)
    (x0 : Vec Ideal S1x512x1024 .f32) (x1 : Vec Ideal S1x1024x1024 .bf16) (x2 : Vec Ideal S1x1024x1024 .f32)
    (x3 : Vec Ideal S1x1x1024 .f32) (b : Fin 16)
    (h0 : ∀ (t : Fin 512) (d : Fin 1024), x0 (ix3 (0 : Fin 1) t d) = a0 (ix3 b t d))
    (h1 : ∀ s d : Fin 1024, x1 (ix3 (0 : Fin 1) s d) = ky (ix3 b s d))
    (h2 : ∀ s d : Fin 1024, x2 (ix3 (0 : Fin 1) s d) = a2 (ix3 b s d))
    (h3 : ∀ s : Fin 1024, x3 (ix3 (0 : Fin 1) (0 : Fin 1) s) = rw (ix3 b (0 : Fin 1) s))
    (j : S1x512x1024.Idx) (i : S16x512x1024.Idx)
    (hi0 : (i 0).val = b.val) (hi1 : (i 1).val = (j 1).val) (hi2 : (i 2).val = (j 2).val) :
    k1_pay6 (F := Ideal) x0 x1 x2 x3 j = contextsOf a0 ky a2 rw i := by
  obtain ⟨u, p, q, rfl⟩ : ∃ (u : Fin 1) (p : Fin 512) (q : Fin 1024), j = ix3 u p q := ⟨j 0, j 1, j 2, eq_ix3 j⟩
  obtain ⟨b', p', q', rfl⟩ : ∃ (b' : Fin 16) (p' : Fin 512) (q' : Fin 1024), i = ix3 b' p' q' := ⟨i 0, i 1, i 2, eq_ix3 i⟩
  obtain rfl : b' = b := Fin.ext hi0
  obtain rfl : p' = p := Fin.ext hi1
  obtain rfl : q' = q := Fin.ext hi2
  have e0 : (fun (t : Fin 512) (d : Fin 1024) => x0 (ix3 (0 : Fin 1) t d)) = fun t d => a0 (ix3 b' t d) := funext fun t => funext fun d => h0 t d
  have e1 : (fun s d : Fin 1024 => x1 (ix3 (0 : Fin 1) s d)) = fun s d => ky (ix3 b' s d) := funext fun s => funext fun d => h1 s d
  have e2 : (fun s d : Fin 1024 => x2 (ix3 (0 : Fin 1) s d)) = fun s d => a2 (ix3 b' s d) := funext fun s => funext fun d => h2 s d
  have e3 : (fun s : Fin 1024 => x3 (ix3 (0 : Fin 1) (0 : Fin 1) s)) = fun s => rw (ix3 b' (0 : Fin 1) s) := funext fun s => h3 s
  refine (Cert.Attn.Body1.contexts_block x0 x1 x2 x3 u p' q').trans ?_
  show Cert.Attn.context (Cert.Attn.weight (Cert.Attn.energy _ _ _) _) _ p' q' = Cert.Attn.context (Cert.Attn.weight (Cert.Attn.energy _ _ _) _) _ p' q'
  rw [e0, e1, e2, e3]

/-- The printed index maps over the grid: point `t` is batch entry `t` for every window. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 3) = t.val ∧ win1_6.index t (1 : Fin 3) = 0 ∧ win1_6.index t (2 : Fin 3) = 0 :=
  (by decide +kernel : ∀ t : Fin grid1.N, _)

/-! ## The contexts (window 4) -/

/-- What point `t` writes back to result window 4 is block `t` of that function of the arrays the kernel finds. -/
theorem flushed4_eq (c : Dev nD) (t : Fin cfg1.N) :
    (dat1 V c).flushed 4 t = ((cfg1.win 4).blk t).view.read (Elt Ideal) (contextsOf (V c main_arg0) (V c main_v2) (V c main_arg2) (V c main_v1)) := by
  show (cfg1.win 4).cut (grid1.coords t) ((dat1 V c).after 4 t) = _
  rw [after1_4]
  unfold out1_4
  rw [View.canon_unit_zero hz3]
  simp only [View.ld_unit_zero (S := S1x512x1024) hz3, View.ld_unit_zero (S := S1x1024x1024) hz3, View.ld_unit_zero (S := S1x1x1024) hz3]
  obtain ⟨e0, e1, e2, e3, e4, e5, e6, e7, e8, e9, e10, e11, e12, e13, e14, e15, e16, e17, e18, e19, e20⟩ := idx_facts t
  have ht : t.val < 16 := by have := t.isLt; have hN : cfg1.N = 16 := N_1; omega
  funext j
  refine contexts_block_eq (V c main_arg0) (V c main_v2) (V c main_arg2) (V c main_v1) (iblk1 V c 0 t) (iblk1 V c 1 t) (iblk1 V c 2 t) (iblk1 V c 3 t) ⟨t.val, ht⟩ ?_ ?_ ?_ ?_ j _ ?_ ?_ ?_
  · intro p d
    show V c main_arg0 (((cfg1.win 0).blk t).view.emb (ix3 (0 : Fin 1) p d)) = V c main_arg0 (ix3 ⟨t.val, ht⟩ p d)
    refine congrArg (V c main_arg0) (funext fun a => Fin.ext ?_)
    match a with
    | ⟨0, _⟩ => show win1_0.index t (0 : Fin 3) * 1 + 1 * 0 = t.val; omega
    | ⟨1, _⟩ => show win1_0.index t (1 : Fin 3) * 512 + 1 * p.val = p.val; omega
    | ⟨2, _⟩ => show win1_0.index t (2 : Fin 3) * 1024 + 1 * d.val = d.val; omega
  · intro s d
    show V c main_v2 (((cfg1.win 1).blk t).view.emb (ix3 (0 : Fin 1) s d)) = V c main_v2 (ix3 ⟨t.val, ht⟩ s d)
    refine congrArg (V c main_v2) (funext fun a => Fin.ext ?_)
    match a with
    | ⟨0, _⟩ => show win1_1.index t (0 : Fin 3) * 1 + 1 * 0 = t.val; omega
    | ⟨1, _⟩ => show win1_1.index t (1 : Fin 3) * 1024 + 1 * s.val = s.val; omega
    | ⟨2, _⟩ => show win1_1.index t (2 : Fin 3) * 1024 + 1 * d.val = d.val; omega
  · intro s d
    show V c main_arg2 (((cfg1.win 2).blk t).view.emb (ix3 (0 : Fin 1) s d)) = V c main_arg2 (ix3 ⟨t.val, ht⟩ s d)
    refine congrArg (V c main_arg2) (funext fun a => Fin.ext ?_)
    match a with
    | ⟨0, _⟩ => show win1_2.index t (0 : Fin 3) * 1 + 1 * 0 = t.val; omega
    | ⟨1, _⟩ => show win1_2.index t (1 : Fin 3) * 1024 + 1 * s.val = s.val; omega
    | ⟨2, _⟩ => show win1_2.index t (2 : Fin 3) * 1024 + 1 * d.val = d.val; omega
  · intro s
    show V c main_v1 (((cfg1.win 3).blk t).view.emb (ix3 (0 : Fin 1) (0 : Fin 1) s)) = V c main_v1 (ix3 ⟨t.val, ht⟩ (0 : Fin 1) s)
    refine congrArg (V c main_v1) (funext fun a => Fin.ext ?_)
    match a with
    | ⟨0, _⟩ => show win1_3.index t (0 : Fin 3) * 1 + 1 * 0 = t.val; omega
    | ⟨1, _⟩ => show win1_3.index t (1 : Fin 3) * 1 + 1 * 0 = 0; omega
    | ⟨2, _⟩ => show win1_3.index t (2 : Fin 3) * 1024 + 1 * s.val = s.val; omega
  · show win1_4.index t (0 : Fin 3) * 1 + 1 * (j 0).val = t.val
    have hj : (j 0).val < 1 := (j 0).isLt
    omega
  · show win1_4.index t (1 : Fin 3) * 512 + 1 * (j 1).val = (j 1).val; omega
  · show win1_4.index t (2 : Fin 3) * 1024 + 1 * (j 2).val = (j 2).val; omega

/-- An index of the result array is in point `t`'s block of window 4 iff each coordinate is in the block's range. -/
theorem mem_blk4 (t : Fin cfg1.N) (i : S16x512x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v3_0).slice (win1_4.rect t)).set ↔ _
  rw [View.set_slice_whole, Rect.mem_set_unit]
  exact Iff.rfl

/-- Every index of the result array is in the block of the point that is its batch coordinate. -/
theorem cover4 (i : S16x512x1024.Idx) :
    ∃ t : Fin cfg1.N, (cfg1.win 4).flush t = true ∧ i ∈ ((cfg1.win 4).blk t).view.set := by
  have hN : cfg1.N = 16 := N_1
  have hi0 : (i 0).val < 16 := (i 0).isLt
  have hi1 : (i 1).val < 512 := (i 1).isLt
  have hi2 : (i 2).val < 1024 := (i 2).isLt
  let t : Fin cfg1.N := ⟨(i 0).val, by omega⟩
  obtain ⟨e0, e1, e2, e3, e4, e5, e6, e7, e8, e9, e10, e11, e12, e13, e14, e15, e16, e17, e18, e19, e20⟩ := idx_facts t
  have htv : t.val = (i 0).val := rfl
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- Result window 4's array after the kernel. -/
theorem final4 (c : Dev nD) : (dat1 V c).arrAt 4 cfg1.N = contextsOf (V c main_arg0) (V c main_v2) (V c main_arg2) (V c main_v1) :=
  (dat1 V c).arrAt_eq_of_cover 4 _ (fun t _ => flushed4_eq V c t) cover4

/-! ## The weights (window 5) -/

/-- What point `t` writes back to result window 5 is block `t` of that function of the arrays the kernel finds. -/
theorem flushed5_eq (c : Dev nD) (t : Fin cfg1.N) :
    (dat1 V c).flushed 5 t = ((cfg1.win 5).blk t).view.read (Elt Ideal) (weightsOf (V c main_arg0) (V c main_v2) (V c main_v1)) := by
  show (cfg1.win 5).cut (grid1.coords t) ((dat1 V c).after 5 t) = _
  rw [after1_5]
  unfold out1_5
  rw [View.canon_unit_zero hz3]
  simp only [View.ld_unit_zero (S := S1x512x1024) hz3, View.ld_unit_zero (S := S1x1024x1024) hz3, View.ld_unit_zero (S := S1x1x1024) hz3]
  obtain ⟨e0, e1, e2, e3, e4, e5, e6, e7, e8, e9, e10, e11, e12, e13, e14, e15, e16, e17, e18, e19, e20⟩ := idx_facts t
  have ht : t.val < 16 := by have := t.isLt; have hN : cfg1.N = 16 := N_1; omega
  funext j
  refine weights_block_eq (V c main_arg0) (V c main_v2) (V c main_arg2) (V c main_v1) (iblk1 V c 0 t) (iblk1 V c 1 t) (iblk1 V c 2 t) (iblk1 V c 3 t) ⟨t.val, ht⟩ ?_ ?_ ?_ ?_ j _ ?_ ?_ ?_
  · intro p d
    show V c main_arg0 (((cfg1.win 0).blk t).view.emb (ix3 (0 : Fin 1) p d)) = V c main_arg0 (ix3 ⟨t.val, ht⟩ p d)
    refine congrArg (V c main_arg0) (funext fun a => Fin.ext ?_)
    match a with
    | ⟨0, _⟩ => show win1_0.index t (0 : Fin 3) * 1 + 1 * 0 = t.val; omega
    | ⟨1, _⟩ => show win1_0.index t (1 : Fin 3) * 512 + 1 * p.val = p.val; omega
    | ⟨2, _⟩ => show win1_0.index t (2 : Fin 3) * 1024 + 1 * d.val = d.val; omega
  · intro s d
    show V c main_v2 (((cfg1.win 1).blk t).view.emb (ix3 (0 : Fin 1) s d)) = V c main_v2 (ix3 ⟨t.val, ht⟩ s d)
    refine congrArg (V c main_v2) (funext fun a => Fin.ext ?_)
    match a with
    | ⟨0, _⟩ => show win1_1.index t (0 : Fin 3) * 1 + 1 * 0 = t.val; omega
    | ⟨1, _⟩ => show win1_1.index t (1 : Fin 3) * 1024 + 1 * s.val = s.val; omega
    | ⟨2, _⟩ => show win1_1.index t (2 : Fin 3) * 1024 + 1 * d.val = d.val; omega
  · intro s d
    show V c main_arg2 (((cfg1.win 2).blk t).view.emb (ix3 (0 : Fin 1) s d)) = V c main_arg2 (ix3 ⟨t.val, ht⟩ s d)
    refine congrArg (V c main_arg2) (funext fun a => Fin.ext ?_)
    match a with
    | ⟨0, _⟩ => show win1_2.index t (0 : Fin 3) * 1 + 1 * 0 = t.val; omega
    | ⟨1, _⟩ => show win1_2.index t (1 : Fin 3) * 1024 + 1 * s.val = s.val; omega
    | ⟨2, _⟩ => show win1_2.index t (2 : Fin 3) * 1024 + 1 * d.val = d.val; omega
  · intro s
    show V c main_v1 (((cfg1.win 3).blk t).view.emb (ix3 (0 : Fin 1) (0 : Fin 1) s)) = V c main_v1 (ix3 ⟨t.val, ht⟩ (0 : Fin 1) s)
    refine congrArg (V c main_v1) (funext fun a => Fin.ext ?_)
    match a with
    | ⟨0, _⟩ => show win1_3.index t (0 : Fin 3) * 1 + 1 * 0 = t.val; omega
    | ⟨1, _⟩ => show win1_3.index t (1 : Fin 3) * 1 + 1 * 0 = 0; omega
    | ⟨2, _⟩ => show win1_3.index t (2 : Fin 3) * 1024 + 1 * s.val = s.val; omega
  · show win1_5.index t (0 : Fin 3) * 1 + 1 * (j 0).val = t.val
    have hj : (j 0).val < 1 := (j 0).isLt
    omega
  · show win1_5.index t (1 : Fin 3) * 512 + 1 * (j 1).val = (j 1).val; omega
  · show win1_5.index t (2 : Fin 3) * 1024 + 1 * (j 2).val = (j 2).val; omega

/-- An index of the result array is in point `t`'s block of window 5 iff each coordinate is in the block's range. -/
theorem mem_blk5 (t : Fin cfg1.N) (i : S16x512x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v3_1).slice (win1_5.rect t)).set ↔ _
  rw [View.set_slice_whole, Rect.mem_set_unit]
  exact Iff.rfl

/-- Every index of the result array is in the block of the point that is its batch coordinate. -/
theorem cover5 (i : S16x512x1024.Idx) :
    ∃ t : Fin cfg1.N, (cfg1.win 5).flush t = true ∧ i ∈ ((cfg1.win 5).blk t).view.set := by
  have hN : cfg1.N = 16 := N_1
  have hi0 : (i 0).val < 16 := (i 0).isLt
  have hi1 : (i 1).val < 512 := (i 1).isLt
  have hi2 : (i 2).val < 1024 := (i 2).isLt
  let t : Fin cfg1.N := ⟨(i 0).val, by omega⟩
  obtain ⟨e0, e1, e2, e3, e4, e5, e6, e7, e8, e9, e10, e11, e12, e13, e14, e15, e16, e17, e18, e19, e20⟩ := idx_facts t
  have htv : t.val = (i 0).val := rfl
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- Result window 5's array after the kernel. -/
theorem final5 (c : Dev nD) : (dat1 V c).arrAt 5 cfg1.N = weightsOf (V c main_arg0) (V c main_v2) (V c main_v1) :=
  (dat1 V c).arrAt_eq_of_cover 5 _ (fun t _ => flushed5_eq V c t) cover5

/-! ## The energies (window 6) -/

/-- What point `t` writes back to result window 6 is block `t` of that function of the arrays the kernel finds. -/
theorem flushed6_eq (c : Dev nD) (t : Fin cfg1.N) :
    (dat1 V c).flushed 6 t = ((cfg1.win 6).blk t).view.read (Elt Ideal) (energiesOf (V c main_arg0) (V c main_v2) (V c main_v1)) := by
  show (cfg1.win 6).cut (grid1.coords t) ((dat1 V c).after 6 t) = _
  rw [after1_6]
  unfold out1_6
  rw [View.canon_unit_zero hz3]
  simp only [View.ld_unit_zero (S := S1x512x1024) hz3, View.ld_unit_zero (S := S1x1024x1024) hz3, View.ld_unit_zero (S := S1x1x1024) hz3]
  obtain ⟨e0, e1, e2, e3, e4, e5, e6, e7, e8, e9, e10, e11, e12, e13, e14, e15, e16, e17, e18, e19, e20⟩ := idx_facts t
  have ht : t.val < 16 := by have := t.isLt; have hN : cfg1.N = 16 := N_1; omega
  funext j
  refine energies_block_eq (V c main_arg0) (V c main_v2) (V c main_arg2) (V c main_v1) (iblk1 V c 0 t) (iblk1 V c 1 t) (iblk1 V c 2 t) (iblk1 V c 3 t) ⟨t.val, ht⟩ ?_ ?_ ?_ ?_ j _ ?_ ?_ ?_
  · intro p d
    show V c main_arg0 (((cfg1.win 0).blk t).view.emb (ix3 (0 : Fin 1) p d)) = V c main_arg0 (ix3 ⟨t.val, ht⟩ p d)
    refine congrArg (V c main_arg0) (funext fun a => Fin.ext ?_)
    match a with
    | ⟨0, _⟩ => show win1_0.index t (0 : Fin 3) * 1 + 1 * 0 = t.val; omega
    | ⟨1, _⟩ => show win1_0.index t (1 : Fin 3) * 512 + 1 * p.val = p.val; omega
    | ⟨2, _⟩ => show win1_0.index t (2 : Fin 3) * 1024 + 1 * d.val = d.val; omega
  · intro s d
    show V c main_v2 (((cfg1.win 1).blk t).view.emb (ix3 (0 : Fin 1) s d)) = V c main_v2 (ix3 ⟨t.val, ht⟩ s d)
    refine congrArg (V c main_v2) (funext fun a => Fin.ext ?_)
    match a with
    | ⟨0, _⟩ => show win1_1.index t (0 : Fin 3) * 1 + 1 * 0 = t.val; omega
    | ⟨1, _⟩ => show win1_1.index t (1 : Fin 3) * 1024 + 1 * s.val = s.val; omega
    | ⟨2, _⟩ => show win1_1.index t (2 : Fin 3) * 1024 + 1 * d.val = d.val; omega
  · intro s d
    show V c main_arg2 (((cfg1.win 2).blk t).view.emb (ix3 (0 : Fin 1) s d)) = V c main_arg2 (ix3 ⟨t.val, ht⟩ s d)
    refine congrArg (V c main_arg2) (funext fun a => Fin.ext ?_)
    match a with
    | ⟨0, _⟩ => show win1_2.index t (0 : Fin 3) * 1 + 1 * 0 = t.val; omega
    | ⟨1, _⟩ => show win1_2.index t (1 : Fin 3) * 1024 + 1 * s.val = s.val; omega
    | ⟨2, _⟩ => show win1_2.index t (2 : Fin 3) * 1024 + 1 * d.val = d.val; omega
  · intro s
    show V c main_v1 (((cfg1.win 3).blk t).view.emb (ix3 (0 : Fin 1) (0 : Fin 1) s)) = V c main_v1 (ix3 ⟨t.val, ht⟩ (0 : Fin 1) s)
    refine congrArg (V c main_v1) (funext fun a => Fin.ext ?_)
    match a with
    | ⟨0, _⟩ => show win1_3.index t (0 : Fin 3) * 1 + 1 * 0 = t.val; omega
    | ⟨1, _⟩ => show win1_3.index t (1 : Fin 3) * 1 + 1 * 0 = 0; omega
    | ⟨2, _⟩ => show win1_3.index t (2 : Fin 3) * 1024 + 1 * s.val = s.val; omega
  · show win1_6.index t (0 : Fin 3) * 1 + 1 * (j 0).val = t.val
    have hj : (j 0).val < 1 := (j 0).isLt
    omega
  · show win1_6.index t (1 : Fin 3) * 512 + 1 * (j 1).val = (j 1).val; omega
  · show win1_6.index t (2 : Fin 3) * 1024 + 1 * (j 2).val = (j 2).val; omega

/-- An index of the result array is in point `t`'s block of window 6 iff each coordinate is in the block's range. -/
theorem mem_blk6 (t : Fin cfg1.N) (i : S16x512x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v3_2).slice (win1_6.rect t)).set ↔ _
  rw [View.set_slice_whole, Rect.mem_set_unit]
  exact Iff.rfl

/-- Every index of the result array is in the block of the point that is its batch coordinate. -/
theorem cover6 (i : S16x512x1024.Idx) :
    ∃ t : Fin cfg1.N, (cfg1.win 6).flush t = true ∧ i ∈ ((cfg1.win 6).blk t).view.set := by
  have hN : cfg1.N = 16 := N_1
  have hi0 : (i 0).val < 16 := (i 0).isLt
  have hi1 : (i 1).val < 512 := (i 1).isLt
  have hi2 : (i 2).val < 1024 := (i 2).isLt
  let t : Fin cfg1.N := ⟨(i 0).val, by omega⟩
  obtain ⟨e0, e1, e2, e3, e4, e5, e6, e7, e8, e9, e10, e11, e12, e13, e14, e15, e16, e17, e18, e19, e20⟩ := idx_facts t
  have htv : t.val = (i 0).val := rfl
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 1024 ≤ (i 2).val ∧ (i 2).val < win1_6.index t (2 : Fin 3) * 1024 + 1024; omega

/-- Result window 6's array after the kernel. -/
theorem final6 (c : Dev nD) : (dat1 V c).arrAt 6 cfg1.N = energiesOf (V c main_arg0) (V c main_v2) (V c main_v1) :=
  (dat1 V c).arrAt_eq_of_cover 6 _ (fun t _ => flushed6_eq V c t) cover6

end Cert.Attn.Array1

end
-- ==== Proof.Values.lean ====
/-
  The idealized kernel program's three results as functions of its five arguments.

  The buffer contents are followed through the program's segments. The two host broadcasts leave the mask as a column
  `[16, 1024, 1]` and as a row `[16, 1, 1024]`, entry `(b, s, 0)` resp. `(b, 0, s)` being the mask's entry `(b, s)`. The first
  kernel finds the encoder outputs, the weights and the mask column as launched resp. as broadcast, and leaves the masked
  projected keys. The second kernel finds the queries and the encoder values as launched, the keys as the first kernel
  left them and the mask row as broadcast, and leaves the contexts, the weights and the energies. Substituting, each
  result is the specification's function of the launch contents of the five arguments.
-/
import proofs.«158329_j59450937311976_2_alg».proof.Proof.Run
import proofs.«158329_j59450937311976_2_alg».proof.Proof.Array0
import proofs.«158329_j59450937311976_2_alg».proof.Proof.Array1
import Idealize.ShloMosaic.Lib.StableHlo.Run
import Idealize.ShloMosaic.Lib.Pipeline.Value

set_option maxRecDepth 16384

noncomputable section

open scoped BigOperators
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen

namespace Cert.Attn.KernelValue

/-! ## The mask's two broadcasts, read at an index -/

/-- The mask as a column: entry `(b, s, z)` is the mask's entry `(b, s)`. -/
theorem col_at (x3 : S16x1024.Idx → EReal) (b : Fin 16) (s : Fin 1024) (z : Fin 1) :
    broadcastInDim S16x1024x1 ![0, 1] bcast_S16x1024_S16x1024x1_0_1 x3 (ix3 b s z) = x3 (ix2 b s) :=
  broadcastInDim_apply _ bcast_S16x1024_S16x1024x1_0_1 x3 (ix3 b s z) (ix2 b s) (fun a => match a with
    | ⟨0, _⟩ => by show b.val = if (16 : Nat) = 1 then 0 else b.val; rw [if_neg (by decide)]
    | ⟨1, _⟩ => by show s.val = if (1024 : Nat) = 1 then 0 else s.val; rw [if_neg (by decide)])

/-- The mask as a row: entry `(b, z, s)` is the mask's entry `(b, s)`. -/
theorem row_at (x3 : S16x1024.Idx → EReal) (b : Fin 16) (z : Fin 1) (s : Fin 1024) :
    broadcastInDim S16x1x1024 ![0, 2] bcast_S16x1024_S16x1x1024_0_2 x3 (ix3 b z s) = x3 (ix2 b s) :=
  broadcastInDim_apply _ bcast_S16x1024_S16x1x1024_0_2 x3 (ix3 b z s) (ix2 b s) (fun a => match a with
    | ⟨0, _⟩ => by show b.val = if (16 : Nat) = 1 then 0 else b.val; rw [if_neg (by decide)]
    | ⟨1, _⟩ => by show s.val = if (1024 : Nat) = 1 then 0 else s.val; rw [if_neg (by decide)])

/-! ## The kernels' array functions at the broadcast mask are the specification's -/

variable (x0 : S16x512x1024.Idx → EReal) (x1 x2 : S16x1024x1024.Idx → EReal) (x3 : S16x1024.Idx → EReal)
  (x4 : S1024x1024.Idx → EReal)

theorem col_fun (b : Fin 16) :
    (fun s : Fin 1024 => broadcastInDim S16x1024x1 ![0, 1] bcast_S16x1024_S16x1024x1_0_1 x3 (ix3 b s (0 : Fin 1)))
      = Cert.Attn.row x3 b := funext fun s => col_at x3 b s 0

theorem row_fun (b : Fin 16) :
    (fun s : Fin 1024 => broadcastInDim S16x1x1024 ![0, 2] bcast_S16x1024_S16x1x1024_0_2 x3 (ix3 b (0 : Fin 1) s))
      = Cert.Attn.row x3 b := funext fun s => row_at x3 b 0 s

theorem keys_bridge :
    Cert.Attn.Array0.keysOf x1 x4 (broadcastInDim S16x1024x1 ![0, 1] bcast_S16x1024_S16x1024x1_0_1 x3)
      = Cert.Attn.keys x1 x3 x4 := by
  funext i
  obtain ⟨b, s, d, rfl⟩ : ∃ (b : Fin 16) (s d : Fin 1024), i = ix3 b s d := ⟨i 0, i 1, i 2, eq_ix3 i⟩
  show Cert.Attn.key (fun s e => x1 (ix3 b s e)) (fun d e => x4 (ix2 d e))
      (fun s : Fin 1024 => broadcastInDim S16x1024x1 ![0, 1] bcast_S16x1024_S16x1024x1_0_1 x3 (ix3 b s (0 : Fin 1))) s d
    = Cert.Attn.key (Cert.Attn.slab x1 b) (Cert.Attn.grid x4) (Cert.Attn.row x3 b) s d
  rw [col_fun]
  rfl

theorem energies_bridge :
    Cert.Attn.Array1.energiesOf x0 (Cert.Attn.keys x1 x3 x4) (broadcastInDim S16x1x1024 ![0, 2] bcast_S16x1024_S16x1x1024_0_2 x3)
      = Cert.Attn.energies x0 x1 x3 x4 := by
  funext i
  obtain ⟨b, p, q, rfl⟩ : ∃ (b : Fin 16) (p : Fin 512) (q : Fin 1024), i = ix3 b p q := ⟨i 0, i 1, i 2, eq_ix3 i⟩
  show Cert.Attn.energy (fun t d => x0 (ix3 b t d)) (fun s d => Cert.Attn.keys x1 x3 x4 (ix3 b s d))
      (fun s : Fin 1024 => broadcastInDim S16x1x1024 ![0, 2] bcast_S16x1024_S16x1x1024_0_2 x3 (ix3 b (0 : Fin 1) s)) p q
    = Cert.Attn.energy (Cert.Attn.slab x0 b) (Cert.Attn.slab (Cert.Attn.keys x1 x3 x4) b) (Cert.Attn.row x3 b) p q
  rw [row_fun]
  rfl

theorem weights_bridge :
    Cert.Attn.Array1.weightsOf x0 (Cert.Attn.keys x1 x3 x4) (broadcastInDim S16x1x1024 ![0, 2] bcast_S16x1024_S16x1x1024_0_2 x3)
      = Cert.Attn.weights x0 x1 x3 x4 := by
  funext i
  obtain ⟨b, p, q, rfl⟩ : ∃ (b : Fin 16) (p : Fin 512) (q : Fin 1024), i = ix3 b p q := ⟨i 0, i 1, i 2, eq_ix3 i⟩
  show Cert.Attn.weight (Cert.Attn.energy (fun t d => x0 (ix3 b t d)) (fun s d => Cert.Attn.keys x1 x3 x4 (ix3 b s d))
      (fun s : Fin 1024 => broadcastInDim S16x1x1024 ![0, 2] bcast_S16x1024_S16x1x1024_0_2 x3 (ix3 b (0 : Fin 1) s)))
      (fun s : Fin 1024 => broadcastInDim S16x1x1024 ![0, 2] bcast_S16x1024_S16x1x1024_0_2 x3 (ix3 b (0 : Fin 1) s)) p q
    = Cert.Attn.weight (Cert.Attn.slab (Cert.Attn.energies x0 x1 x3 x4) b) (Cert.Attn.row x3 b) p q
  rw [row_fun]
  rfl

theorem contexts_bridge :
    Cert.Attn.Array1.contextsOf x0 (Cert.Attn.keys x1 x3 x4) x2 (broadcastInDim S16x1x1024 ![0, 2] bcast_S16x1024_S16x1x1024_0_2 x3)
      = Cert.Attn.contexts x0 x1 x2 x3 x4 := by
  funext i
  obtain ⟨b, p, q, rfl⟩ : ∃ (b : Fin 16) (p : Fin 512) (q : Fin 1024), i = ix3 b p q := ⟨i 0, i 1, i 2, eq_ix3 i⟩
  show Cert.Attn.context (Cert.Attn.weight (Cert.Attn.energy (fun t d => x0 (ix3 b t d)) (fun s d => Cert.Attn.keys x1 x3 x4 (ix3 b s d))
      (fun s : Fin 1024 => broadcastInDim S16x1x1024 ![0, 2] bcast_S16x1024_S16x1x1024_0_2 x3 (ix3 b (0 : Fin 1) s)))
      (fun s : Fin 1024 => broadcastInDim S16x1x1024 ![0, 2] bcast_S16x1024_S16x1x1024_0_2 x3 (ix3 b (0 : Fin 1) s)))
      (fun s d => x2 (ix3 b s d)) p q
    = Cert.Attn.context (Cert.Attn.slab (Cert.Attn.weights x0 x1 x3 x4) b) (Cert.Attn.slab x2 b) p q
  rw [row_fun]
  rfl

/-! ## What each kernel finds in its operand arrays -/

variable (m : (ℓ : Loc nD τ sig) → Buf (Elt Ideal) ℓ) (ρ : Dev nD → PrngReg)

/-- After the host broadcasts an argument array is as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
/-- The mask column and the mask row are the two broadcasts of the mask as launched. -/
theorem W1_v0 (c : Dev nD) : W1 m ρ c (Proc.devRef .tc main_v0)
    = broadcastInDim S16x1024x1 ![0, 1] bcast_S16x1024_S16x1024x1_0_1 (m ((c : Thread nD τ).loc main_arg3)) := by
  show StableHlo.after hostOps0 (W0 m ρ c) (Proc.devRef .tc main_v0) = _
  after_results <;> rfl
theorem W1_v1 (c : Dev nD) : W1 m ρ c (Proc.devRef .tc main_v1)
    = broadcastInDim S16x1x1024 ![0, 2] bcast_S16x1024_S16x1x1024_0_2 (m ((c : Thread nD τ).loc main_arg3)) := by
  show StableHlo.after hostOps0 (W0 m ρ c) (Proc.devRef .tc main_v1) = _
  after_results <;> rfl

/-- The first kernel leaves the masked projected keys of the arguments as launched. -/
theorem W2_v2 (c : Dev nD) : W2 m ρ c (Proc.devRef .tc main_v2)
    = Cert.Attn.keys (m ((c : Thread nD τ).loc main_arg1)) (m ((c : Thread nD τ).loc main_arg3)) (m ((c : Thread nD τ).loc main_arg4)) := by
  refine (W2_arr m ρ c 3).trans ?_
  refine (Cert.Attn.Array0.final (V1 m ρ) c).trans ?_
  show Cert.Attn.Array0.keysOf (W1 m ρ c (Proc.devRef .tc main_arg1)) (W1 m ρ c (Proc.devRef .tc main_arg4)) (W1 m ρ c (Proc.devRef .tc main_v0)) = _
  rw [W1_arg1, W1_arg4, W1_v0]
  exact keys_bridge _ _ _

/-- The second kernel's other operands: as launched, resp. the mask row. -/
theorem W2_arg0 (c : Dev nD) : W2 m ρ c (Proc.devRef .tc main_arg0) = m ((c : Thread nD τ).loc main_arg0) :=
  (W2_of_ne m ρ c main_arg0 (by decide)).trans (W1_arg0 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_v1 (c : Dev nD) : W2 m ρ c (Proc.devRef .tc main_v1)
    = broadcastInDim S16x1x1024 ![0, 2] bcast_S16x1024_S16x1x1024_0_2 (m ((c : Thread nD τ).loc main_arg3)) :=
  (W2_of_ne m ρ c main_v1 (by decide)).trans (W1_v1 m ρ c)

/-! ## The three results -/

/-- The contexts. -/
theorem result0 (c : Dev nD) : W3 m ρ c (Proc.devRef .tc main_v3_0)
    = Cert.Attn.contexts (m ((c : Thread nD τ).loc main_arg0)) (m ((c : Thread nD τ).loc main_arg1)) (m ((c : Thread nD τ).loc main_arg2))
        (m ((c : Thread nD τ).loc main_arg3)) (m ((c : Thread nD τ).loc main_arg4)) := by
  refine (W3_arr m ρ c 4).trans ?_
  refine (Cert.Attn.Array1.final4 (V2 m ρ) c).trans ?_
  show Cert.Attn.Array1.contextsOf (W2 m ρ c (Proc.devRef .tc main_arg0)) (W2 m ρ c (Proc.devRef .tc main_v2))
    (W2 m ρ c (Proc.devRef .tc main_arg2)) (W2 m ρ c (Proc.devRef .tc main_v1)) = _
  rw [W2_arg0, W2_v2, W2_arg2, W2_v1]
  exact contexts_bridge _ _ _ _ _

/-- The attention weights. -/
theorem result1 (c : Dev nD) : W3 m ρ c (Proc.devRef .tc main_v3_1)
    = Cert.Attn.weights (m ((c : Thread nD τ).loc main_arg0)) (m ((c : Thread nD τ).loc main_arg1))
        (m ((c : Thread nD τ).loc main_arg3)) (m ((c : Thread nD τ).loc main_arg4)) := by
  refine (W3_arr m ρ c 5).trans ?_
  refine (Cert.Attn.Array1.final5 (V2 m ρ) c).trans ?_
  show Cert.Attn.Array1.weightsOf (W2 m ρ c (Proc.devRef .tc main_arg0)) (W2 m ρ c (Proc.devRef .tc main_v2))
    (W2 m ρ c (Proc.devRef .tc main_v1)) = _
  rw [W2_arg0, W2_v2, W2_v1]
  exact weights_bridge _ _ _ _

/-- The masked energies. -/
theorem result2 (c : Dev nD) : W3 m ρ c (Proc.devRef .tc main_v3_2)
    = Cert.Attn.energies (m ((c : Thread nD τ).loc main_arg0)) (m ((c : Thread nD τ).loc main_arg1))
        (m ((c : Thread nD τ).loc main_arg3)) (m ((c : Thread nD τ).loc main_arg4)) := by
  refine (W3_arr m ρ c 6).trans ?_
  refine (Cert.Attn.Array1.final6 (V2 m ρ) c).trans ?_
  show Cert.Attn.Array1.energiesOf (W2 m ρ c (Proc.devRef .tc main_arg0)) (W2 m ρ c (Proc.devRef .tc main_v2))
    (W2 m ρ c (Proc.devRef .tc main_v1)) = _
  rw [W2_arg0, W2_v2, W2_v1]
  exact energies_bridge _ _ _ _

/-- The run with each result at the specification's function of the arguments as launched. -/
theorem run : θ_run defs (onTc (τ := τ) (main (F := Ideal))) ⟨m, fun _ => 0, ρ⟩ (fun r => ∀ c : Dev nD,
      r.2.mem ((c.tc : Thread nD τ).loc main_v3_0)
        = Cert.Attn.contexts (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v3_1)
        = Cert.Attn.weights (m ((c : Thread nD τ).loc main_arg0)) (m ((c : Thread nD τ).loc main_arg1))
            (m ((c : Thread nD τ).loc main_arg3)) (m ((c : Thread nD τ).loc main_arg4))
      ∧ r.2.mem ((c.tc : Thread nD τ).loc main_v3_2)
        = Cert.Attn.energies (m ((c : Thread nD τ).loc main_arg0)) (m ((c : Thread nD τ).loc main_arg1))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result0 m ρ c), (h c).2.1.trans (result1 m ρ c),
      (h c).2.2.1.trans (result2 m ρ c), (h c).2.2.2⟩)
    (Cert.Attn.KernelRun.run m ρ)

end Cert.Attn.KernelValue

end
-- ==== Proof.RefIs.lean ====
/-
  The reference program, stage by stage, is the masked attention of the specification.

  Each stage of the reference is read at an index with literal coordinates and identified with the
  specification's function of the same name: the masked projected keys, the masked energies, the
  logits, the row maxima, the unnormalized weights, the row normalizers, the weights, the contexts.
  The maximum along the source axis is a fold of a commutative and associative operation, so it is the
  unordered fold of the specification; the sums are finite sums over the same index type.
-/
import proofs.«158329_j59450937311976_2_alg».proof.Proof.Gen.ReferenceIdeal.Read
import proofs.«158329_j59450937311976_2_alg».proof.Proof.Spec
import Idealize.ShloMosaic.Lib.ValueIdx
import Idealize.ShloMosaic.PureOps.Ideal.Laws
import Idealize.ShloMosaic.PureOps.Reduce

noncomputable section

open scoped BigOperators
open Cert.ReferenceIdeal Cert.ReferenceIdeal.Read Idealize.ShloMosaic Idealize.ShloMosaic.ValueIdx

namespace Cert.Attn.Ref

section Stages

variable (x0 : (⟨S16x512x1024, .f32⟩ : BufTy).Contents (Elt Ideal))
  (x1 x2 : (⟨S16x1024x1024, .f32⟩ : BufTy).Contents (Elt Ideal))
  (x3 : (⟨S16x1024, .f32⟩ : BufTy).Contents (Elt Ideal))
  (x4 : (⟨S1024x1024, .f32⟩ : BufTy).Contents (Elt Ideal))

/-! ## The mask, broadcast along either of the two other axes -/

/-- The mask broadcast along the last axis: entry `(b, s, d)` is the mask at `(b, s)`. -/
theorem maskRows_at (b : Fin 16) (s d : Fin 1024) :
    val_main_v2 (F := Ideal) x3 (ix3 b s d) = x3 (ix2 b s) := by
  rw [val_main_v2_apply, val_main_v1_apply]
  exact congrArg x3 (funext fun a => Fin.ext (by match a with | ⟨0, _⟩ => rfl | ⟨1, _⟩ => rfl))

/-- The mask broadcast along the middle axis: entry `(b, t, s)` is the mask at `(b, s)`. -/
theorem maskCols6_at (b : Fin 16) (t : Fin 512) (s : Fin 1024) :
    val_main_v6 (F := Ideal) x3 (ix3 b t s) = x3 (ix2 b s) := by
  rw [val_main_v6_apply, val_main_v5_apply]
  exact congrArg x3 (funext fun a => Fin.ext (by match a with | ⟨0, _⟩ => rfl | ⟨1, _⟩ => rfl))

theorem maskCols9_at (b : Fin 16) (t : Fin 512) (s : Fin 1024) :
    val_main_v9 (F := Ideal) x3 (ix3 b t s) = x3 (ix2 b s) := by
  rw [val_main_v9_apply, val_main_v8_apply]
  exact congrArg x3 (funext fun a => Fin.ext (by match a with | ⟨0, _⟩ => rfl | ⟨1, _⟩ => rfl))

theorem maskCols17_at (b : Fin 16) (t : Fin 512) (s : Fin 1024) :
    val_main_v17 (F := Ideal) x3 (ix3 b t s) = x3 (ix2 b s) := by
  rw [val_main_v17_apply, val_main_v16_apply]
  exact congrArg x3 (funext fun a => Fin.ext (by match a with | ⟨0, _⟩ => rfl | ⟨1, _⟩ => rfl))

/-! ## Keys and energies -/

/-- The masked projected key at `(b, s, d)`. -/
theorem keys_at (b : Fin 16) (s d : Fin 1024) :
    val_main_v3 (F := Ideal) x1 x3 x4 (ix3 b s d) = key (slab x1 b) (grid x4) (row x3 b) s d := by
  rw [val_main_v3_apply, val_main_v0_apply, maskRows_at, Ideal.mulf_def]
  unfold key slab grid row
  refine congrArg (· * x3 (ix2 b s)) (Finset.sum_congr rfl fun e _ => ?_)
  have h1 : lidx_main_v0 (ix3 b s d) e = ix3 b s e :=
    funext fun a => Fin.ext (by match a with | ⟨0, _⟩ => rfl | ⟨1, _⟩ => rfl | ⟨2, _⟩ => rfl)
  have h2 : ridx_main_v0 (ix3 b s d) e = ix2 d e :=
    funext fun a => Fin.ext (by match a with | ⟨0, _⟩ => rfl | ⟨1, _⟩ => rfl)
  rw [h1, h2]

/-- The keys stage is the specification's keys. -/
theorem keys_eq : val_main_v3 (F := Ideal) x1 x3 x4 = keys x1 x3 x4 := by
  funext i
  obtain ⟨b, s, d, rfl⟩ : ∃ (b : Fin 16) (s d : Fin 1024), i = ix3 b s d := ⟨i 0, i 1, i 2, eq_ix3 i⟩
  exact keys_at x1 x3 x4 b s d

/-- The masked energy at `(b, t, s)`. -/
theorem energies_at (b : Fin 16) (t : Fin 512) (s : Fin 1024) :
    val_main_v7 (F := Ideal) x0 x1 x3 x4 (ix3 b t s)
      = energy (slab x0 b) (slab (keys x1 x3 x4) b) (row x3 b) t s := by
  rw [val_main_v7_apply, val_main_v4_apply, maskCols6_at, Ideal.mulf_def, keys_eq]
  unfold energy slab row
  refine congrArg (· * x3 (ix2 b s)) (Finset.sum_congr rfl fun e _ => ?_)
  have h1 : lidx_main_v4 (ix3 b t s) e = ix3 b t e :=
    funext fun a => Fin.ext (by match a with | ⟨0, _⟩ => rfl | ⟨1, _⟩ => rfl | ⟨2, _⟩ => rfl)
  have h2 : ridx_main_v4 (ix3 b t s) e = ix3 b s e :=
    funext fun a => Fin.ext (by match a with | ⟨0, _⟩ => rfl | ⟨1, _⟩ => rfl | ⟨2, _⟩ => rfl)
  rw [h1, h2]

/-- The energies stage is the specification's energies. -/
theorem energies_eq' : val_main_v7 (F := Ideal) x0 x1 x3 x4 = energies x0 x1 x3 x4 := by
  funext i
  obtain ⟨b, t, s, rfl⟩ : ∃ (b : Fin 16) (t : Fin 512) (s : Fin 1024), i = ix3 b t s := ⟨i 0, i 1, i 2, eq_ix3 i⟩
  exact energies_at x0 x1 x3 x4 b t s

/-! ## Logits and the row maximum -/

/-- The logit at `(b, t, s)`. -/
theorem logits_at (b : Fin 16) (t : Fin 512) (s : Fin 1024) :
    val_main_v10 (F := Ideal) x0 x1 x3 x4 (ix3 b t s)
      = logit (slab (energies x0 x1 x3 x4) b) (row x3 b) t s := by
  rw [val_main_v10_apply, energies_eq', maskCols9_at, Ideal.mulf_def]
  rfl

/-- The greatest logit of row `(b, t)`: the reduction by maximum along the source axis is the unordered fold. -/
theorem tops_at (b : Fin 16) (t : Fin 512) :
    val_main_v11 (F := Ideal) x0 x1 x3 x4 (ix2 b t)
      = top (slab (energies x0 x1 x3 x4) b) (row x3 b) t := by
  have h : S16x512x1024.Reduces [2] S16x512 := by decide
  unfold val_main_v11
  refine (Host.reduce_eq_fold_single FloatOps.maximumf _ _ _ h _ (ix2 b t)).trans ?_
  have hf : (val_main_v10 (F := Ideal) x0 x1 x3 x4 ∘ h.lift (ix2 b t))
      = fun s : Fin 1024 => logit (slab (energies x0 x1 x3 x4) b) (row x3 b) t s :=
    funext fun k => (congrArg (val_main_v10 (F := Ideal) x0 x1 x3 x4)
      (show h.lift (ix2 b t) k = ix3 b t k from
        funext fun a => Fin.ext (by match a with | ⟨0, _⟩ => rfl | ⟨1, _⟩ => rfl | ⟨2, _⟩ => rfl))).trans
      (logits_at x0 x1 x3 x4 b t k)
  exact congrArg (fun f => Finset.fold max (Ideal.ofBits .f32 0xFF800000#32) f (Finset.univ : Finset (Fin 1024))) hf

/-! ## The masked softmax -/

/-- The row maximum broadcast back along the source axis. -/
theorem topsBack_at (b : Fin 16) (t : Fin 512) (s : Fin 1024) :
    val_main_v13 (F := Ideal) x0 x1 x3 x4 (ix3 b t s)
      = top (slab (energies x0 x1 x3 x4) b) (row x3 b) t := by
  rw [val_main_v13_apply, val_main_v12_apply]
  refine (congrArg (val_main_v11 (F := Ideal) x0 x1 x3 x4) (?_ : _ = ix2 b t)).trans (tops_at x0 x1 x3 x4 b t)
  exact funext fun a => Fin.ext (by match a with | ⟨0, _⟩ => rfl | ⟨1, _⟩ => rfl)

/-- The unnormalized weight at `(b, t, s)`. -/
theorem masses_at (b : Fin 16) (t : Fin 512) (s : Fin 1024) :
    val_main_v18 (F := Ideal) x0 x1 x3 x4 (ix3 b t s)
      = mass (slab (energies x0 x1 x3 x4) b) (row x3 b) t s := by
  rw [val_main_v18_apply, val_main_v15_apply, val_main_v14_apply, logits_at, topsBack_at, maskCols17_at,
    Ideal.mulf_def, Ideal.hostUnary_exp_def, Ideal.subf_def]
  rfl

/-- The sum of row `(b, t)`'s unnormalized weights: the reduction starts from zero. -/
theorem sums_at (b : Fin 16) (t : Fin 512) :
    val_main_v19 (F := Ideal) x0 x1 x3 x4 (ix2 b t)
      = ∑ s : Fin 1024, mass (slab (energies x0 x1 x3 x4) b) (row x3 b) t s := by
  rw [val_main_v19_apply]
  show Ideal.ofBits .f32 0x00000000#32 + _ = _
  rw [Ideal.ofBits_zero_f32, zero_add]
  refine Finset.sum_congr rfl fun k _ => ?_
  refine (congrArg (val_main_v18 (F := Ideal) x0 x1 x3 x4) (?_ : _ = ix3 b t k)).trans (masses_at x0 x1 x3 x4 b t k)
  exact funext fun a => Fin.ext (by match a with | ⟨0, _⟩ => rfl | ⟨1, _⟩ => rfl | ⟨2, _⟩ => rfl)

/-- The normalizer of row `(b, t)`: the sum plus the small constant. -/
theorem totals_at (b : Fin 16) (t : Fin 512) (z : Fin 1) :
    val_main_v22 (F := Ideal) x0 x1 x3 x4 (ix3 b t z)
      = total (slab (energies x0 x1 x3 x4) b) (row x3 b) t := by
  rw [val_main_v22_apply, val_main_v20_apply, val_main_v21_apply, val_main_cst_1_apply, Ideal.addf_def]
  unfold total
  refine congrArg (· + Ideal.ofBits .f32 0x358637BD#32) ?_
  refine (congrArg (val_main_v19 (F := Ideal) x0 x1 x3 x4) (?_ : _ = ix2 b t)).trans (sums_at x0 x1 x3 x4 b t)
  exact funext fun a => Fin.ext (by match a with | ⟨0, _⟩ => rfl | ⟨1, _⟩ => rfl)

/-- The attention weight at `(b, t, s)`. -/
theorem weights_at (b : Fin 16) (t : Fin 512) (s : Fin 1024) :
    val_main_v24 (F := Ideal) x0 x1 x3 x4 (ix3 b t s)
      = weight (slab (energies x0 x1 x3 x4) b) (row x3 b) t s := by
  rw [val_main_v24_apply, val_main_v23_apply, masses_at, Ideal.hostDivf_def]
  unfold weight
  refine congrArg (Ideal.div _) ?_
  refine (congrArg (val_main_v22 (F := Ideal) x0 x1 x3 x4) (?_ : _ = ix3 b t (0 : Fin 1))).trans
    (totals_at x0 x1 x3 x4 b t 0)
  exact funext fun a => Fin.ext (by match a with | ⟨0, _⟩ => rfl | ⟨1, _⟩ => rfl | ⟨2, _⟩ => rfl)

/-- The weights stage is the specification's weights. -/
theorem weights_eq' : val_main_v24 (F := Ideal) x0 x1 x3 x4 = weights x0 x1 x3 x4 := by
  funext i
  obtain ⟨b, t, s, rfl⟩ : ∃ (b : Fin 16) (t : Fin 512) (s : Fin 1024), i = ix3 b t s := ⟨i 0, i 1, i 2, eq_ix3 i⟩
  exact weights_at x0 x1 x3 x4 b t s

/-! ## The contexts -/

/-- The context at `(b, t, d)`. -/
theorem contexts_at (b : Fin 16) (t : Fin 512) (d : Fin 1024) :
    val_main_v25 (F := Ideal) x0 x1 x2 x3 x4 (ix3 b t d)
      = context (slab (weights x0 x1 x3 x4) b) (slab x2 b) t d := by
  rw [val_main_v25_apply, weights_eq']
  unfold context slab
  refine Finset.sum_congr rfl fun k _ => ?_
  have h1 : lidx_main_v25 (ix3 b t d) k = ix3 b t k :=
    funext fun a => Fin.ext (by match a with | ⟨0, _⟩ => rfl | ⟨1, _⟩ => rfl | ⟨2, _⟩ => rfl)
  have h2 : ridx_main_v25 (ix3 b t d) k = ix3 b k d :=
    funext fun a => Fin.ext (by match a with | ⟨0, _⟩ => rfl | ⟨1, _⟩ => rfl | ⟨2, _⟩ => rfl)
  rw [h1, h2]

/-- The contexts stage is the specification's contexts. -/
theorem contexts_eq' : val_main_v25 (F := Ideal) x0 x1 x2 x3 x4 = contexts x0 x1 x2 x3 x4 := by
  funext i
  obtain ⟨b, t, d, rfl⟩ : ∃ (b : Fin 16) (t : Fin 512) (d : Fin 1024), i = ix3 b t d := ⟨i 0, i 1, i 2, eq_ix3 i⟩
  exact contexts_at x0 x1 x2 x3 x4 b t d

end Stages

/-! ## The three results -/

theorem energies_eq (x0 : (⟨S16x512x1024, .f32⟩ : BufTy).Contents (Elt Ideal)) (x1 : (⟨S16x1024x1024, .f32⟩ : BufTy).Contents (Elt Ideal)) (x3 : (⟨S16x1024, .f32⟩ : BufTy).Contents (Elt Ideal)) (x4 : (⟨S1024x1024, .f32⟩ : BufTy).Contents (Elt Ideal)) :
    val_main_v7 (F := Ideal) x0 x1 x3 x4 = Cert.Attn.energies x0 x1 x3 x4 :=
  energies_eq' x0 x1 x3 x4

theorem weights_eq (x0 : (⟨S16x512x1024, .f32⟩ : BufTy).Contents (Elt Ideal)) (x1 : (⟨S16x1024x1024, .f32⟩ : BufTy).Contents (Elt Ideal)) (x3 : (⟨S16x1024, .f32⟩ : BufTy).Contents (Elt Ideal)) (x4 : (⟨S1024x1024, .f32⟩ : BufTy).Contents (Elt Ideal)) :
    val_main_v24 (F := Ideal) x0 x1 x3 x4 = Cert.Attn.weights x0 x1 x3 x4 :=
  weights_eq' x0 x1 x3 x4

theorem contexts_eq (x0 : (⟨S16x512x1024, .f32⟩ : BufTy).Contents (Elt Ideal)) (x1 x2 : (⟨S16x1024x1024, .f32⟩ : BufTy).Contents (Elt Ideal)) (x3 : (⟨S16x1024, .f32⟩ : BufTy).Contents (Elt Ideal)) (x4 : (⟨S1024x1024, .f32⟩ : BufTy).Contents (Elt Ideal)) :
    val_main_v25 (F := Ideal) x0 x1 x2 x3 x4 = Cert.Attn.contexts x0 x1 x2 x3 x4 :=
  contexts_eq' x0 x1 x2 x3 x4

end Cert.Attn.Ref

end
-- ==== Proof.lean ====
/-
  Masked dot-product attention with a projected key, computed by two pipelined kernels, against its plain array
  reference, on the extended reals.

  Both programs compute, for each of 16 batch entries: the keys `(eo · Wᵀ) · mask`, the energies `(h · keysᵀ) · mask`,
  the logits `energies · mask`, the masked softmax of the logits along the source axis with a small constant added to
  the normalizer, and the contexts `weights · ev`. The kernel program casts the operands of its three matrix products
  to a narrower float format and keeps the keys in that format; on the extended reals a change of format is the
  identity, a matrix product into a zero accumulator and the host's contraction are the same finite sum, the lane
  reductions and the host's reductions are the same finite sum and the same unordered fold of `max`, and the two
  divisions are the same function. So both programs end with the specification's three arrays of the five
  arguments (`Spec.lean`), and no algebraic law beyond reading both sides index by index joins them: the
  precondition is not used.

  The kernel program's side: each kernel's stored block read at an index (`Body0.lean`, `Body1.lean`), the blocks
  assembled into whole arrays (`Array0.lean`, `Array1.lean`), the run with its results named (`Run.lean`) and the
  buffer contents followed through the program (`Values.lean`). The reference's side: its stages read at an index
  (`RefIs.lean`). The three frames are the programs' runs with the results dropped; the idealization rewrote nothing.
-/
import proofs.«158329_j59450937311976_2_alg».proof.Defs
import proofs.«158329_j59450937311976_2_alg».proof.Proof.Gen.Kernel
import proofs.«158329_j59450937311976_2_alg».proof.Proof.Gen.Kernel.Frame
import proofs.«158329_j59450937311976_2_alg».proof.Proof.Gen.KernelIdeal
import proofs.«158329_j59450937311976_2_alg».proof.Proof.Gen.KernelIdeal.Frame
import proofs.«158329_j59450937311976_2_alg».proof.Proof.Gen.ReferenceIdeal
import proofs.«158329_j59450937311976_2_alg».proof.Proof.Gen.Pre_finite_inputs
import proofs.«158329_j59450937311976_2_alg».proof.Proof.Gen.ReferenceIdeal.Run
import proofs.«158329_j59450937311976_2_alg».proof.Proof.Gen.ReferenceIdeal.Read
import proofs.«158329_j59450937311976_2_alg».proof.Proof.Values
import proofs.«158329_j59450937311976_2_alg».proof.Proof.RefIs
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel :=
  fun m ρ _ => Cert.Kernel.Gen.frame m ρ

/-- So does the idealized kernel program. -/
theorem frame_kernelIdeal : Cert.frame_KernelIdeal :=
  fun m ρ _ => Cert.KernelIdeal.Gen.frame m ρ

/-- The reference's frame is its run with the results dropped. -/
theorem frame_referenceIdeal : Cert.frame_ReferenceIdeal :=
  fun m ρ _ => (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories agreeing on the arguments both idealized programs end with the specification's contexts, weights and
    energies of those arguments. -/
theorem algebraic [Cert.KernelIdeal.Facts] :
    Cert.algebraic_KernelIdeal_ReferenceIdeal := by
  intro m ρ m' ρ' _ hagree
  refine ⟨_, _, _, Cert.Attn.KernelValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v25_eq, Cert.Attn.Ref.contexts_eq, (hagree c).1, (hagree c).2.1,
      (hagree c).2.2.1, (hagree c).2.2.2.1, (hagree c).2.2.2.2]
  · rw [Cert.ReferenceIdeal.Read.val_main_v24_eq, Cert.Attn.Ref.weights_eq, (hagree c).1, (hagree c).2.1,
      (hagree c).2.2.2.1, (hagree c).2.2.2.2]
  · rw [Cert.ReferenceIdeal.Read.val_main_v7_eq, Cert.Attn.Ref.energies_eq, (hagree c).1, (hagree c).2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
